-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S64 : Shape := ⟨1, ![64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S131072x64 .f32) (main_arg1 : FVec F S131072x64 .f32) (main_arg2 : FVec F S64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S131072x64 : Shape := ⟨2, ![131072, 64]⟩
abbrev S64 : Shape := ⟨1, ![64]⟩
abbrev S1x64 : Shape := ⟨2, ![1, 64]⟩
abbrev S2x64x64 : Shape := ⟨3, ![2, 64, 64]⟩
abbrev S2x1x1 : Shape := ⟨3, ![2, 1, 1]⟩
abbrev S4096x64 : Shape := ⟨2, ![4096, 64]⟩
abbrev S1x64x64 : Shape := ⟨3, ![1, 64, 64]⟩
abbrev S1x1x1 : Shape := ⟨3, ![1, 1, 1]⟩
abbrev S64x64 : Shape := ⟨2, ![64, 64]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 50
  | .vmem => 13
  | .smem => 0
  | _ => 0

abbrev bufTy : (tb : Table) → Fin (tcTables nBuf tb) → BufTy
  | .hbm, ⟨0, _⟩ => ⟨S131072x64, .f32⟩
  | .hbm, ⟨1, _⟩ => ⟨S131072x64, .f32⟩
  | .hbm, ⟨2, _⟩ => ⟨S64, .f32⟩
  | .hbm, ⟨3, _⟩ => ⟨S1x64, .f32⟩
  | .hbm, ⟨4, _⟩ => ⟨S2x64x64, .f32⟩
  | .hbm, ⟨5, _⟩ => ⟨S2x64x64, .f32⟩
  | .hbm, ⟨6, _⟩ => ⟨S2x64x64, .f32⟩
  | .hbm, ⟨7, _⟩ => ⟨S2x1x1, .f32⟩
  | .hbm, ⟨8, _⟩ => ⟨S_, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .i32⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x64, .i1⟩
  | .hbm, ⟨26, _⟩ => ⟨S_, .f32⟩
  | .hbm, ⟨27, _⟩ => ⟨S64x64, .f32⟩
  | .hbm, ⟨28, _⟩ => ⟨S64x64, .i1⟩
  | .hbm, ⟨29, _⟩ => ⟨S64x64, .i1⟩
  | .hbm, ⟨30, _⟩ => ⟨S_, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S1x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x1x1, .f32⟩
  | .local _ .vmem, ⟨12, _⟩ => ⟨S1x1x1, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64_S1x64 : S64.ShapeCasts S1x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  natLt_1_32 : 1 < 32
  bitsLt_bf16_f32 : FTy.bits .bf16 < FTy.bits .f32
  reducesTo_S2x64x64_S64x64_d0 : S2x64x64.ReducesTo [0] S64x64
  h_S_ : 0 < S_.numel
  reducesTo_S2x1x1_S1x1_d0 : S2x1x1.ReducesTo [0] S1x1
  bcast_S_S64x64 : S_.BroadcastsInDim S64x64 (![] : Fin 0 → Fin S64x64.rank)
  transposes_S64x64_S64x64_1_0 : S64x64.Transposes [1, 0] S64x64
  reducesTo_S64x64_S_d0_1 : S64x64.ReducesTo [0, 1] S_
  shapeCasts_S1x1_S_ : S1x1.ShapeCasts S_
  dot_S4096x64_S4096x64_S64x64_0_0_1_1_n_n_wf : DotDims.WF S4096x64 S4096x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S2x64x64.size a
  hwx0_3 : ∀ i : grid0.Coords, EltTy.bits .f32 = 32 ∨ (Rect.block (s := S2x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S2x64x64.size a
  hwx0_4 : ∀ i : grid0.Coords, EltTy.bits .f32 = 32 ∨ (Rect.block (s := S2x64x64) S1x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S2x64x64.size a
  hwx0_5 : ∀ i : grid0.Coords, EltTy.bits .f32 = 32 ∨ (Rect.block (s := S2x64x64) S1x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x64x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S64 : Shape := ⟨1, ![64]⟩
abbrev S64x131072 : Shape := ⟨2, ![64, 131072]⟩
abbrev S64x64 : Shape := ⟨2, ![64, 64]⟩
abbrev S_ : Shape := ⟨0, ![]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072x64, .f32⟩
  | .hbm, ⟨2, _⟩ => ⟨S64, .f32⟩
  | .hbm, ⟨3, _⟩ => ⟨S64x131072, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S131072x64, .f32⟩
  | .hbm, ⟨9, _⟩ => ⟨S131072x64, .f32⟩
  | .hbm, ⟨10, _⟩ => ⟨S_, .f32⟩
  | .hbm, ⟨11, _⟩ => ⟨S131072x64, .f32⟩
  | .hbm, ⟨12, _⟩ => ⟨S131072x64, .f32⟩
  | .hbm, ⟨13, _⟩ => ⟨S_, .f32⟩
  | .hbm, ⟨14, _⟩ => ⟨S131072x64, .f32⟩
  | .hbm, ⟨15, _⟩ => ⟨S131072x64, .f32⟩
  | .hbm, ⟨16, _⟩ => ⟨S131072x64, .f32⟩
  | .hbm, ⟨17, _⟩ => ⟨S_, .f32⟩
  | .hbm, ⟨18, _⟩ => ⟨S131072x64, .f32⟩
  | .hbm, ⟨19, _⟩ => ⟨S131072x64, .f32⟩
  | .hbm, ⟨20, _⟩ => ⟨S_, .f32⟩
  | .hbm, ⟨21, _⟩ => ⟨S131072x64, .f32⟩
  | .hbm, ⟨22, _⟩ => ⟨S131072x64, .f32⟩
  | .hbm, ⟨23, _⟩ => ⟨S131072x64, .f32⟩
  | .hbm, ⟨24, _⟩ => ⟨S131072x64, .f32⟩
  | .hbm, ⟨25, _⟩ => ⟨S_, .f32⟩
  | .hbm, ⟨26, _⟩ => ⟨S131072x64, .f32⟩
  | .hbm, ⟨27, _⟩ => ⟨S131072x64, .f32⟩
  | .hbm, ⟨28, _⟩ => ⟨S_, .f32⟩
  | .hbm, ⟨29, _⟩ => ⟨S131072x64, .f32⟩
  | .hbm, ⟨30, _⟩ => ⟨S131072x64, .f32⟩
  | .hbm, ⟨31, _⟩ => ⟨S1x64, .f32⟩
  | .hbm, ⟨32, _⟩ => ⟨S131072x64, .f32⟩
  | .hbm, ⟨33, _⟩ => ⟨S131072x64, .f32⟩
  | .hbm, ⟨34, _⟩ => ⟨S131072x64, .f32⟩
  | .hbm, ⟨35, _⟩ => ⟨S_, .f32⟩
  | .hbm, ⟨36, _⟩ => ⟨S131072x64, .f32⟩
  | .hbm, ⟨37, _⟩ => ⟨S131072x64, .f32⟩
  | .hbm, ⟨38, _⟩ => ⟨S131072x64, .f32⟩
  | .hbm, ⟨39, _⟩ => ⟨S131072x64, .f32⟩
  | .hbm, ⟨40, _⟩ => ⟨S131072x64, .i1⟩
  | .hbm, ⟨41, _⟩ => ⟨S131072x64, .f32⟩
  | .hbm, ⟨42, _⟩ => ⟨S131072x64, .f32⟩
  | .hbm, ⟨43, _⟩ => ⟨S131072x64, .f32⟩
  | .hbm, ⟨44, _⟩ => ⟨S131072x64, .f32⟩
  | .hbm, ⟨45, _⟩ => ⟨S131072x64, .f32⟩
  | .hbm, ⟨46, _⟩ => ⟨S131072x64, .f32⟩
  | .hbm, ⟨47, _⟩ => ⟨S131072x64, .f32⟩
  | .hbm, ⟨48, _⟩ => ⟨S131072x64, .f32⟩
  | .hbm, ⟨49, _⟩ => ⟨S131072x64, .f32⟩
  | .hbm, ⟨50, _⟩ => ⟨S131072x64, .f32⟩
  | .hbm, ⟨51, _⟩ => ⟨S_, .f32⟩
  | .hbm, ⟨52, _⟩ => ⟨S131072x64, .f32⟩
  | .hbm, ⟨53, _⟩ => ⟨S131072x64, .f32⟩
  | .hbm, ⟨54, _⟩ => ⟨S131072x64, .f32⟩
  | .hbm, ⟨55, _⟩ => ⟨S131072x64, .f32⟩
  | .hbm, ⟨56, _⟩ => ⟨S_, .f32⟩
  | .hbm, ⟨57, _⟩ => ⟨S131072x64, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S131072x64, .i1⟩
  | .hbm, ⟨62, _⟩ => ⟨S131072x64, .f32⟩
  | .hbm, ⟨63, _⟩ => ⟨S131072x64, .f32⟩
  | .hbm, ⟨64, _⟩ => ⟨S131072x64, .f32⟩
  | .hbm, ⟨65, _⟩ => ⟨S131072x64, .f32⟩
  | .hbm, ⟨66, _⟩ => ⟨S131072x64, .f32⟩
  | .hbm, ⟨67, _⟩ => ⟨S131072x64, .f32⟩
  | .hbm, ⟨68, _⟩ => ⟨S131072x64, .f32⟩
  | .hbm, ⟨69, _⟩ => ⟨S131072x64, .f32⟩
  | .hbm, ⟨70, _⟩ => ⟨S131072x64, .f32⟩
  | .hbm, ⟨71, _⟩ => ⟨S131072x64, .f32⟩
  | .hbm, ⟨72, _⟩ => ⟨S131072x64, .f32⟩
  | .hbm, ⟨73, _⟩ => ⟨S131072x64, .f32⟩
  | .hbm, ⟨74, _⟩ => ⟨S131072x64, .f32⟩
  | .hbm, ⟨75, _⟩ => ⟨S_, .f32⟩
  | .hbm, ⟨76, _⟩ => ⟨S131072x64, .f32⟩
  | .hbm, ⟨77, _⟩ => ⟨S131072x64, .i1⟩
  | .hbm, ⟨78, _⟩ => ⟨S131072x64, .f32⟩
  | .hbm, ⟨79, _⟩ => ⟨S64x64, .i32⟩
  | .hbm, ⟨80, _⟩ => ⟨S64x64, .i32⟩
  | .hbm, ⟨81, _⟩ => ⟨S_, .i32⟩
  | .hbm, ⟨82, _⟩ => ⟨S64x64, .i32⟩
  | .hbm, ⟨83, _⟩ => ⟨S64x64, .i32⟩
  | .hbm, ⟨84, _⟩ => ⟨S64x64, .i1⟩
  | .hbm, ⟨85, _⟩ => ⟨S64x64, .i1⟩
  | .hbm, ⟨86, _⟩ => ⟨S_, .f32⟩
  | .hbm, ⟨87, _⟩ => ⟨S64x64, .f32⟩
  | .hbm, ⟨88, _⟩ => ⟨S64x64, .i1⟩
  | .hbm, ⟨89, _⟩ => ⟨S64x64, .i1⟩
  | .hbm, ⟨90, _⟩ => ⟨S_, .f32⟩
  | .hbm, ⟨91, _⟩ => ⟨S_, .f32⟩
  | .hbm, ⟨92, _⟩ => ⟨S64x64, .f32⟩
  | .hbm, ⟨93, _⟩ => ⟨S64x64, .f32⟩
  | .hbm, ⟨94, _⟩ => ⟨S_, .f32⟩
  | .hbm, ⟨95, _⟩ => ⟨S64x64, .f32⟩
  | .hbm, ⟨96, _⟩ => ⟨S64x64, .f32⟩
  | .hbm, ⟨97, _⟩ => ⟨S64x64, .f32⟩
  | .hbm, ⟨98, _⟩ => ⟨S131072x64, .f32⟩
  | .hbm, ⟨99, _⟩ => ⟨S131072x64, .f32⟩
  | .hbm, ⟨100, _⟩ => ⟨S64x64, .f32⟩
  | .hbm, ⟨101, _⟩ => ⟨S131072x64, .f32⟩
  | .hbm, ⟨102, _⟩ => ⟨S131072x64, .f32⟩
  | .hbm, ⟨103, _⟩ => ⟨S131072x64, .f32⟩
  | .hbm, ⟨104, _⟩ => ⟨S_, .f32⟩
  | .hbm, ⟨105, _⟩ => ⟨S131072x64, .f32⟩
  | .hbm, ⟨106, _⟩ => ⟨S131072x64, .f32⟩
  | .hbm, ⟨107, _⟩ => ⟨S131072x64, .f32⟩
  | .hbm, ⟨108, _⟩ => ⟨S131072x64, .f32⟩
  | .hbm, ⟨109, _⟩ => ⟨S131072x64, .f32⟩
  | .hbm, ⟨110, _⟩ => ⟨S131072x64, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_9 : Ref sig .tc := ⟨.hbm, 90, rfl⟩
abbrev main_call2_v0 : Ref sig .tc := ⟨.hbm, 91, rfl⟩
abbrev main_call2_v1 : Ref sig .tc := ⟨.hbm, 92, rfl⟩
abbrev main_v46 : Ref sig .tc := ⟨.hbm, 93, rfl⟩
abbrev main_cst_10 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_11 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_cst_13 : Ref sig .tc := ⟨.hbm, 113, rfl⟩
abbrev main_v63 : Ref sig .tc := ⟨.hbm, 114, rfl⟩

abbrev nD : Nat := 1
abbrev τ : Topo := Topo.v7x

variable {F : FTy → Type} [FloatOps F]

class Facts₀ : Prop where
  transposes_S131072x64_S64x131072_1_0 : S131072x64.Transposes [1, 0] S64x131072
  bcast_S_S64x64 : S_.BroadcastsInDim S64x64 (![] : Fin 0 → Fin S64x64.rank)
  bcast_S_S131072x64 : S_.BroadcastsInDim S131072x64 (![] : Fin 0 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  transposes_S64x64_S64x64_1_0 : S64x64.Transposes [1, 0] S64x64
  reducesTo_S131072x64_S_d0_1 : S131072x64.ReducesTo [0, 1] S_
  h_S_ : 0 < S_.numel
  dot_S64x131072_S131072x64_S64x64_1_0_0_1_n_n_wf : DotDims.WF S64x131072 S131072x64 S64x64 [1] [0] [0] [1] [] []
  dot_S131072x64_S64x64_S131072x64_1_0_0_1_n_n_wf : DotDims.WF S131072x64 S64x64 S131072x64 [1] [0] [0] [1] [] []

variable [Facts₀]

def dot_S64x131072_S131072x64_S64x64_1_0_0_1_n_n : DotDims S64x131072 S131072x64 S64x64 where
  lhsContracting := [1]
  rhsContracting := [0]
  lhsNonContracting := [0]
  rhsNonContracting := [1]
  lhsBatch := []
  rhsBatch := []
  wf := dot_S64x131072_S131072x64_S64x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.KerCases.lean ====
/-
  What each of the kernel's two control cases leaves in the four accumulators' staging buffers, as pure terms of the
  point's input blocks: the label Gram matrix `tᵀ t`, the two prediction Gram matrices and the focal-loss total each
  receive `previous + this tile's contribution`, the previous contents being the zero block at the first point of a group.
-/
import proofs.«154980_j21131239097026_2_alg».proof.Proof.Gen.KernelIdeal.Frame
import Idealize.ShloMosaic.Lib.Pipeline.Value
import Idealize.ShloMosaic.Lib.Tactic

set_option pp.maxSteps 8000
set_option pp.deepTerms false

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that continues a group the body leaves in output 3's buffer its one covering store: the payload over the
    two input blocks and what the buffer held. -/
theorem out_B_3 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : ¬cond0_0 i)
    (x0 x1 : Vec F S4096x64 .f32) (x2 : Vec F S1x64 .f32) (xo3 xo4 xo5 : Vec F S1x64x64 .f32) (xo6 : Vec F S1x1x1 .f32) :
    out0_B_3 c i arg2 harg2 arg3 harg3 arg4 harg4 arg5 harg5 arg6 harg6 arg7 harg7 arg8 harg8 hc0 x0 x1 x2 xo3 xo4 xo5 xo6 = k0_pay16 x1 xo3 := by
  unfold out0_B_3
  rw [View.read_writes_eq_canon _ _ _ (cover0_B_3 c i arg2 harg2 arg3 harg3 arg4 harg4 arg5 harg5 arg6 harg6 arg7 harg7 arg8 harg8 hc0 x0 x1 x2 xo3 xo4 xo5 xo6)]
  unfold kernelRun0_B
  dsimp only
  sl_unfold_words
  first | rw [View.canon_unit_zero hz3] | rw [View.canon_cons_unit_zero (S := S1x64x64) hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that opens a group the body first stores the zero block, reads it back, and then stores the same payload over it. -/
theorem out_A_3 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : cond0_0 i)
    (x0 x1 : Vec F S4096x64 .f32) (x2 : Vec F S1x64 .f32) :
    out0_A_3 c i arg2 harg2 arg3 harg3 arg4 harg4 arg5 harg5 arg6 harg6 arg7 harg7 arg8 harg8 hc0 x0 x1 x2 = k0_pay16 x1 k0_pay3 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  first | rw [View.canon_cons_unit_zero (S := S1x64x64) hz3] | rw [View.canon_unit_zero hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that continues a group the body leaves in output 4's buffer its one covering store: the payload over the
    two input blocks and what the buffer held. -/
theorem out_B_4 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : ¬cond0_0 i)
    (x0 x1 : Vec F S4096x64 .f32) (x2 : Vec F S1x64 .f32) (xo3 xo4 xo5 : Vec F S1x64x64 .f32) (xo6 : Vec F S1x1x1 .f32) :
    out0_B_4 c i arg2 harg2 arg3 harg3 arg4 harg4 arg5 harg5 arg6 harg6 arg7 harg7 arg8 harg8 hc0 x0 x1 x2 xo3 xo4 xo5 xo6 = k0_pay1 (k0_pay17 x1 (k0_pay7 x0) xo4) := by
  unfold out0_B_4
  rw [View.read_writes_eq_canon _ _ _ (cover0_B_4 c i arg2 harg2 arg3 harg3 arg4 harg4 arg5 harg5 arg6 harg6 arg7 harg7 arg8 harg8 hc0 x0 x1 x2 xo3 xo4 xo5 xo6)]
  unfold kernelRun0_B
  dsimp only
  sl_unfold_words
  first | rw [View.canon_unit_zero hz3] | rw [View.canon_cons_unit_zero (S := S1x64x64) hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that opens a group the body first stores the zero block, reads it back, and then stores the same payload over it. -/
theorem out_A_4 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : cond0_0 i)
    (x0 x1 : Vec F S4096x64 .f32) (x2 : Vec F S1x64 .f32) :
    out0_A_4 c i arg2 harg2 arg3 harg3 arg4 harg4 arg5 harg5 arg6 harg6 arg7 harg7 arg8 harg8 hc0 x0 x1 x2 = k0_pay1 (k0_pay17 x1 (k0_pay7 x0) k0_pay4) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  first | rw [View.canon_cons_unit_zero (S := S1x64x64) hz3] | rw [View.canon_unit_zero hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that continues a group the body leaves in output 5's buffer its one covering store: the payload over the
    two input blocks and what the buffer held. -/
theorem out_B_5 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : ¬cond0_0 i)
    (x0 x1 : Vec F S4096x64 .f32) (x2 : Vec F S1x64 .f32) (xo3 xo4 xo5 : Vec F S1x64x64 .f32) (xo6 : Vec F S1x1x1 .f32) :
    out0_B_5 c i arg2 harg2 arg3 harg3 arg4 harg4 arg5 harg5 arg6 harg6 arg7 harg7 arg8 harg8 hc0 x0 x1 x2 xo3 xo4 xo5 xo6 = k0_pay2 (k0_pay15 x1 (k0_pay7 x0)) xo5 := by
  unfold out0_B_5
  rw [View.read_writes_eq_canon _ _ _ (cover0_B_5 c i arg2 harg2 arg3 harg3 arg4 harg4 arg5 harg5 arg6 harg6 arg7 harg7 arg8 harg8 hc0 x0 x1 x2 xo3 xo4 xo5 xo6)]
  unfold kernelRun0_B
  dsimp only
  sl_unfold_words
  first | rw [View.canon_unit_zero hz3] | rw [View.canon_cons_unit_zero (S := S1x64x64) hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that opens a group the body first stores the zero block, reads it back, and then stores the same payload over it. -/
theorem out_A_5 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : cond0_0 i)
    (x0 x1 : Vec F S4096x64 .f32) (x2 : Vec F S1x64 .f32) :
    out0_A_5 c i arg2 harg2 arg3 harg3 arg4 harg4 arg5 harg5 arg6 harg6 arg7 harg7 arg8 harg8 hc0 x0 x1 x2 = k0_pay2 (k0_pay15 x1 (k0_pay7 x0)) k0_pay5 := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  first | rw [View.canon_cons_unit_zero (S := S1x64x64) hz3] | rw [View.canon_unit_zero hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that continues a group the body leaves in output 6's buffer its one covering store: the payload over the
    two input blocks and what the buffer held. -/
theorem out_B_6 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : ¬cond0_0 i)
    (x0 x1 : Vec F S4096x64 .f32) (x2 : Vec F S1x64 .f32) (xo3 xo4 xo5 : Vec F S1x64x64 .f32) (xo6 : Vec F S1x1x1 .f32) :
    out0_B_6 c i arg2 harg2 arg3 harg3 arg4 harg4 arg5 harg5 arg6 harg6 arg7 harg7 arg8 harg8 hc0 x0 x1 x2 xo3 xo4 xo5 xo6 = k0_pay13 x1 (k0_pay8 x0 x1) (k0_pay10 x0) (k0_pay11 x0 x1 x2) k0_pay12 xo6 := by
  unfold out0_B_6
  rw [View.read_writes_eq_canon _ _ _ (cover0_B_6 c i arg2 harg2 arg3 harg3 arg4 harg4 arg5 harg5 arg6 harg6 arg7 harg7 arg8 harg8 hc0 x0 x1 x2 xo3 xo4 xo5 xo6)]
  unfold kernelRun0_B
  dsimp only
  sl_unfold_words
  first | rw [View.canon_unit_zero hz3] | rw [View.canon_cons_unit_zero (S := S1x1x1) hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

/-- At a point that opens a group the body first stores the zero block, reads it back, and then stores the same payload over it. -/
theorem out_A_6 (c : Dev nD) (i : grid0.Coords) (arg2 : Memref sig .tc .vmem S4096x64 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x1x1 .f32) (harg8 : arg8.IsWhole) (hc0 : cond0_0 i)
    (x0 x1 : Vec F S4096x64 .f32) (x2 : Vec F S1x64 .f32) :
    out0_A_6 c i arg2 harg2 arg3 harg3 arg4 harg4 arg5 harg5 arg6 harg6 arg7 harg7 arg8 harg8 hc0 x0 x1 x2 = k0_pay13 x1 (k0_pay8 x0 x1) (k0_pay10 x0) (k0_pay11 x0 x1 x2) k0_pay12 k0_pay6 := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  first | rw [View.canon_cons_unit_zero (S := S1x1x1) hz3] | rw [View.canon_unit_zero hz3]
  simp only [View.readCov_unit_zero (S := S1x64x64) _ hz3, View.readCov_unit_zero (S := S1x1x1) _ hz3, View.readAt_eq_ld, harg2.read_unread, harg3.read_unread, harg4.read_unread, harg5.read_unread, harg6.read_unread, harg7.read_unread, harg8.read_unread, View.ld_unit_zero (S := S1x64x64) hz3, View.ld_unit_zero (S := S1x1x1) hz3, View.ld_unit_zero (S := S4096x64) hz2, View.ld_unit_zero (S := S1x64) hz2]

end Cert.KernelIdeal.KerValue

end
-- ==== Proof.Spec.lean ====
/-
  The one number both programs compute, written over the extended reals.

  Inputs: logits `x` and targets `t`, each 131072 rows by 64 labels, a weight `pw` per label, and a 64 by 64
  matrix `A` of label-pair weights (both programs build it from the label correlation `tᵀ t / 131072`, thresholded,
  off the diagonal, halved; the law below does not look inside it).

  Per entry: the probability `p = 1 / (1 + e^{-x})`, the agreement `p t + (1 - p)(1 - t)`, the focal weight
  `(1 - agreement)²`, the weighted cross entropy `-(pw t log σ(x) + (1 - t) log σ(-x))` with
  `log σ(y) = -softplus(-y)`, `softplus(y) = max(y, 0) + log(1 + e^{-|y|})`, and the hard prediction `[p ≥ 1/2]`.

  The reference adds to each entry's focal loss the penalty
  `t_{b,c} (pred_{b,c} (t A^T)_{b,c} + ((t·pred) A^T)_{b,c} - 2 pred_{b,c} ((t·pred) A^T)_{b,c})` and averages; the
  kernel sums the focal losses, adds `Σ_{i,j} A_{i,j} (G_{i,j} + G_{j,i} - 2 H_{i,j})` over the Gram matrices
  `G = (t·pred)ᵀ t`, `H = (t·pred)ᵀ (t·pred)`, and averages. It writes the square as a product and
  `log σ(-x)` as `log σ(x) - x`.
-/
import Idealize.ShloMosaic.PureOps.Ideal

noncomputable section

open scoped BigOperators

namespace Cert.FocalGram

open Idealize.ShloMosaic

/-- The float words both programs spell: 1, 2, 1/2 and the entry count 2^23. -/
abbrev one : EReal := Ideal.ofBits .f32 0x3F800000#32
abbrev two : EReal := Ideal.ofBits .f32 0x40000000#32
abbrev half : EReal := Ideal.ofBits .f32 0x3F000000#32
abbrev nAll : EReal := Ideal.ofBits .f32 0x4B000000#32

/-- `max(y, 0) + log(1 + e^{-|y|})`. -/
def softplus (y : EReal) : EReal := max y 0 + Ideal.log1p (Ideal.exp (-(max y (-y))))
/-- `log σ(y) = -softplus(-y)`. -/
def logSig (y : EReal) : EReal := -(softplus (-y))

variable (x t : Fin 131072 → Fin 64 → EReal) (pw : Fin 64 → EReal) (A : Fin 64 → Fin 64 → EReal)

/-- The probability of an entry. -/
def prob (b : Fin 131072) (c : Fin 64) : EReal := Ideal.logistic (x b c)
/-- How far the probability agrees with the target. -/
def agree (b : Fin 131072) (c : Fin 64) : EReal := prob x b c * t b c + (one - prob x b c) * (one - t b c)
/-- The hard prediction, `1` where the probability reaches one half. -/
def pred (b : Fin 131072) (c : Fin 64) : EReal := if half ≤ prob x b c then 1 else 0

/-- The focal loss of an entry as the reference writes it. -/
def focalRef (b : Fin 131072) (c : Fin 64) : EReal :=
  Ideal.pow (one - agree x t b c) two
    * -((pw c * t b c) * logSig (x b c) + (one - t b c) * logSig (-(x b c)))
/-- The focal loss of an entry as the kernel writes it. -/
def focalKer (b : Fin 131072) (c : Fin 64) : EReal :=
  ((one - agree x t b c) * (one - agree x t b c))
    * -((pw c * t b c) * logSig (x b c) + (one - t b c) * (logSig (x b c) - x b c))

/-- `(t Aᵀ)_{b,c}`. -/
def tA (b : Fin 131072) (c : Fin 64) : EReal := ∑ k, t b k * A c k
/-- `((t·pred) Aᵀ)_{b,c}`. -/
def tpA (b : Fin 131072) (c : Fin 64) : EReal := ∑ k, (t b k * pred x b k) * A c k
/-- The reference's correlation penalty of an entry. -/
def penalty (b : Fin 131072) (c : Fin 64) : EReal :=
  t b c * ((pred x b c * tA t A b c + tpA x t A b c) - (two * pred x b c) * tpA x t A b c)
/-- The reference's result: the mean of focal loss plus penalty. -/
def refValue : EReal := Ideal.div (∑ b, ∑ c, (focalRef x t pw b c + penalty x t A b c)) nAll

/-- `G = (t·pred)ᵀ t`. -/
def gramG (i j : Fin 64) : EReal := ∑ b, (t b i * pred x b i) * t b j
/-- `H = (t·pred)ᵀ (t·pred)`. -/
def gramH (i j : Fin 64) : EReal := ∑ b, (t b i * pred x b i) * (t b j * pred x b j)
/-- The kernel's result: the focal losses' sum plus the penalty contracted against the Gram matrices, averaged. -/
def kerValue : EReal :=
  Ideal.div ((∑ b, ∑ c, focalKer x t pw b c)
    + ∑ i, ∑ j, A i j * ((gramG x t i j + gramG x t j i) - two * gramH x t i j)) nAll

end Cert.FocalGram

end
-- ==== Proof.KerScalar.lean ====
/-
  The kernel's per-entry arithmetic, one extended real at a time, against the specification's.

  The kernel writes `-y` as `0 - y`, carries a comparison `z ≠ z` that never fires (no extended real differs from
  itself) and obtains the hard prediction by widening the comparison bit and converting it: here these spellings are
  shown to be the specification's focal loss `focalKer` and prediction `pred` of the same entry.
-/
import proofs.«154980_j21131239097026_2_alg».proof.Proof.Spec
import Idealize.ShloMosaic.PureOps.Ideal.Laws
import Idealize.ShloMosaic.Lib.ValueIdx

noncomputable section

namespace Cert.FocalGram

open Idealize.ShloMosaic

/-- The zero word, as both programs spell it. -/
abbrev zeroW : EReal := Ideal.ofBits .f32 0x00000000#32

/-- The focal loss of one entry, as a function of the entry's logit, target and label weight (the kernel's form). -/
def focalS (x t w : EReal) : EReal :=
  ((one - (Ideal.logistic x * t + (one - Ideal.logistic x) * (one - t)))
      * (one - (Ideal.logistic x * t + (one - Ideal.logistic x) * (one - t))))
    * -((w * t) * logSig x + (one - t) * (logSig x - x))

/-- The hard prediction of one entry. -/
def predS (x : EReal) : EReal := if half ≤ Ideal.logistic x then 1 else 0

theorem focalKer_eq (x t : Fin 131072 → Fin 64 → EReal) (pw : Fin 64 → EReal) (b : Fin 131072) (c : Fin 64) :
    focalKer x t pw b c = focalS (x b c) (t b c) (pw c) := rfl

theorem pred_eq (x : Fin 131072 → Fin 64 → EReal) (b : Fin 131072) (c : Fin 64) : pred x b c = predS (x b c) := rfl

/-- The comparison bit, widened to a word and converted, is the prediction. -/
theorem predK (p : EReal) :
    (FloatOps.sitofp (F := Ideal) .f32 ((Ideal.cmp .oge p half).setWidth 32) : EReal) = if half ≤ p then 1 else 0 := by
  unfold Ideal.cmp
  by_cases h : half ≤ p
  · rw [if_pos h]
    show (((BitVec.setWidth 32 (BitVec.ofBool (decide (half ≤ p)))).toInt : ℝ) : EReal) = 1
    rw [decide_eq_true h]
    show ((((1#32 : BitVec 32)).toInt : ℝ) : EReal) = 1
    norm_num
  · rw [if_neg h]
    show (((BitVec.setWidth 32 (BitVec.ofBool (decide (half ≤ p)))).toInt : ℝ) : EReal) = 0
    rw [decide_eq_false h]
    show ((((0#32 : BitVec 32)).toInt : ℝ) : EReal) = 0
    norm_num

/-- The kernel's log-sigmoid chain of one logit: `0 - softplus(0 - x)` with its dead guard, is `logSig x`. -/
theorem logSigK (x : EReal) :
    zeroW - Scalar.select (Ideal.cmp .one ((zeroW - x) - zeroW) ((zeroW - x) - zeroW)) ((zeroW - x) + zeroW)
        (max (zeroW - x) zeroW
          + Ideal.log1p (Ideal.exp (zeroW - max ((zeroW - x) - zeroW) (-((zeroW - x) - zeroW)))))
      = logSig x := by
  have hc : ∀ z : EReal, Ideal.cmp .one z z = 0#1 := fun z => by
    unfold Ideal.cmp
    show BitVec.ofBool (decide (z ≠ z)) = 0#1
    rw [decide_eq_false (fun h => h rfl)]
    rfl
  rw [hc, ValueIdx.select_zero]
  unfold logSig softplus zeroW
  simp only [Ideal.ofBits_zero_f32, zero_sub, sub_zero]

end Cert.FocalGram

end
-- ==== Proof.LibGramProducts.lean ====
/-
  The Gram-type product at the ideal (extended real) values, generic in the extents: a matrix product that contracts the
  FIRST axis of both operands, `xᵀ y`, into a zero accumulator, read at an entry.

  For x of shape [K, M] and y of shape [K, N] the entry (e, o) of the [M, N] result is the sum over r of
  x(r, e) · y(r, o): column e of the left operand against column o of the right one.
-/
import Idealize.ShloMosaic.PureOps.Ideal.Laws
import Idealize.ShloMosaic.Lib.Pipeline.Value
import Idealize.ShloMosaic.Lib.ValueIdx

noncomputable section

open scoped BigOperators

namespace Cert.LibGramProducts

open Idealize.ShloMosaic Idealize.ShloMosaic.ValueIdx

variable {K M N : ℕ}

/-- The dimension numbers contracting the first axis of both operands, over any evidence of well-formedness. -/
abbrev dimsTN (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wf : DotDims.WF ⟨2, ![K, M]⟩ ⟨2, ![K, N]⟩ ⟨2, ![M, N]⟩ [0] [0] [1] [1] [] [])

/-- The left operand's second coordinate is the output's row coordinate, -/
theorem tn_lhs_free (j : (⟨2, ![M, N]⟩ : Shape).Idx) (q : (dimsTN wf).contr.Idx) :
    ((dimsTN wf).lhsIdx j q 1).val = (j 0).val := by
  unfold DotDims.lhsIdx
  rw [dif_neg (show ¬(1 : Fin 2) ∈ (dimsTN wf).lhsBatch from List.not_mem_nil),
    dif_pos (show (1 : Fin 2) ∈ (dimsTN wf).lhsNonContracting from List.mem_singleton.mpr rfl)]
  rfl

/-- and the right operand's second coordinate is the output's column coordinate. -/
theorem tn_rhs_free (j : (⟨2, ![M, N]⟩ : Shape).Idx) (q : (dimsTN wf).contr.Idx) :
    ((dimsTN wf).rhsIdx j q 1).val = (j 1).val := by
  unfold DotDims.rhsIdx
  rw [dif_neg (show ¬(1 : Fin 2) ∈ (dimsTN wf).rhsBatch from List.not_mem_nil),
    dif_pos (show (1 : Fin 2) ∈ (dimsTN wf).rhsNonContracting from List.mem_singleton.mpr rfl)]
  rfl

/-- Entry (e, o) of the product into a zero accumulator: column e of the left operand against column o of the right one. -/
theorem dimsTN_matmul_zero_apply {φ₁ φ₂ : FTy} (prec : Option ContractPrecision)
    (x : FVec Ideal ⟨2, ![K, M]⟩ φ₁) (y : FVec Ideal ⟨2, ![K, N]⟩ φ₂) (e : Fin M) (o : Fin N) :
    FloatOps.matmul (dimsTN wf) prec x y (constant ⟨2, ![M, N]⟩ .f32 0x00000000#32) (ix2 e o)
      = ∑ r : Fin K, x (ix2 r e) * y (ix2 r o) := by
  rw [Ideal.matmul_constant_zero_apply,
    ← Equiv.sum_comp (contrEquiv1 (dimsTN wf) K rfl rfl).symm]
  refine Finset.sum_congr rfl fun k _ => ?_
  have hk := contrEquiv1_symm_val (dimsTN wf) K rfl rfl k
  have el : (dimsTN wf).lhsIdx (ix2 e o)
      ((contrEquiv1 (dimsTN wf) K rfl rfl).symm k) = ix2 k e := funext fun a => Fin.ext (by
    match a with
    | ⟨0, _⟩ => exact ((dimsTN wf).lhsIdx_val_of_single rfl _ _).trans hk
    | ⟨1, _⟩ => exact tn_lhs_free wf _ _)
  have er : (dimsTN wf).rhsIdx (ix2 e o)
      ((contrEquiv1 (dimsTN wf) K rfl rfl).symm k) = ix2 k o := funext fun a => Fin.ext (by
    match a with
    | ⟨0, _⟩ => exact ((dimsTN wf).rhsIdx_val_of_single rfl _ _).trans hk
    | ⟨1, _⟩ => exact tn_rhs_free wf _ _)
  rw [el, er]

/-- The same for any dimension numbers whose six lists are those. -/
theorem matmulTN {φ₁ φ₂ : FTy} (D : DotDims ⟨2, ![K, M]⟩ ⟨2, ![K, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (x : FVec Ideal ⟨2, ![K, M]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 r e) * y (ix2 r o) := by
  obtain ⟨lc, rc, ln, rn, lb, rb, wf⟩ := D
  simp only at hlc hrc hln hrn hlb hrb
  subst hlc hrc hln hrn hlb hrb
  exact dimsTN_matmul_zero_apply wf prec x y e o

end Cert.LibGramProducts

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«154980_j21131239097026_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsTotal.lean ====
/-
  The total of an [a, b] array taken in two keep-dims steps, at the ideal (extended real) values, generic in the extents.

  Summing along the rows gives a length-a vector; kept as an [a, 1] column and summed down its one column it gives a
  length-1 vector; cast to [1, 1] and read at (0, 0) it is the sum over r of the sum over k of entry (r, k). Also: a
  length-a vector cast to an [a, 1] column keeps entry i at (i, 0), and a sum over a rank-1 index set is the sum over
  its coordinate.
-/
import Idealize.ShloMosaic.PureOps.Ideal.Laws
import Idealize.ShloMosaic.Lib.Pipeline.Value
import Idealize.ShloMosaic.Lib.ValueIdx
import Idealize.ShloMosaic.Lib.ValueLayout
import proofs.«154980_j21131239097026_2_alg».proof.Proof.LibRowReduceProducts

noncomputable section

open scoped BigOperators

namespace Cert.LibKeepdimsTotal

open Idealize.ShloMosaic Idealize.ShloMosaic.ValueIdx

/-- A length-a vector cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A rank-1 index set is its one coordinate range. -/
def idxEquiv1 {n : ℕ} : (⟨1, ![n]⟩ : Shape).Idx ≃ Fin n where
  toFun i := i 0
  invFun p := ix1 p
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The total of an [a, b] array by a row sum kept as a column, a column sum, a cast to [1, 1] and a read at (0, 0). -/
theorem keepdims_total {a b : ℕ} (src : FVec Ideal ⟨2, ![a, b]⟩ .f32)
    (h1 : Shape.Reduces ⟨2, ![a, b]⟩ [1] ⟨1, ![a]⟩) (hφ1 : FKind.Formats .f32)
    (hacc1 : (0x00000000#32 : BitVec 32) = FKind.add.neutral .f32 hφ1)
    (sc1 : (⟨1, ![a]⟩ : Shape).ShapeCasts ⟨2, ![a, 1]⟩)
    (h2 : Shape.Reduces ⟨2, ![a, 1]⟩ [0] ⟨1, ![1]⟩) (hφ2 : FKind.Formats .f32)
    (hacc2 : (0x00000000#32 : BitVec 32) = FKind.add.neutral .f32 hφ2)
    (sc2 : (⟨1, ![1]⟩ : Shape).ShapeCasts ⟨2, ![1, 1]⟩)
    (hpos : ∀ d, (![0, 0] : Fin (⟨2, ![1, 1]⟩ : Shape).rank → ℕ) d < (⟨2, ![1, 1]⟩ : Shape).size d) :
    extractAt ![0, 0]
        (shapeCast ⟨2, ![1, 1]⟩
          (multiReduction .add [0] ⟨1, ![1]⟩
            (shapeCast ⟨2, ![a, 1]⟩ (multiReduction .add [1] ⟨1, ![a]⟩ src 0x00000000#32 h1 hφ1 hacc1) sc1)
            0x00000000#32 h2 hφ2 hacc2) sc2) hpos
      = ∑ r : Fin a, ∑ k : Fin b, src (ix2 r k) := by
  have e0 : (fun d => (⟨(![0, 0] : Fin 2 → ℕ) d, hpos d⟩ : Fin ((⟨2, ![1, 1]⟩ : Shape).size d)))
      = ix2 (0 : Fin 1) (0 : Fin 1) := funext fun d => Fin.ext (by
    match d with
    | ⟨0, _⟩ => rfl
    | ⟨1, _⟩ => rfl)
  show shapeCast ⟨2, ![1, 1]⟩ _ sc2 _ = _
  rw [e0, shapeCast_a_1a_apply, Cert.LibRowReduceProducts.colSum_apply]
  refine Finset.sum_congr rfl fun r _ => ?_
  rw [shapeCast_a_a1_apply, Cert.LibRowReduceProducts.rowSum_apply]

end Cert.LibKeepdimsTotal

end
-- ==== Proof.KerPay.lean ====
/-
  The kernel body's four stored values read at an entry, at the ideal (extended real) values.

  With `x`, `t` the point's [4096, 64] blocks of logits and targets and `w` its [1, 64] row of label weights:
  the three 64 by 64 accumulators receive at (i, j) the sums over the block's rows r of
  `t(r,i) t(r,j)`, `(t·pred)(r,i) t(r,j)` and `(t·pred)(r,i) (t·pred)(r,j)`, and the scalar accumulator the sum over
  rows and labels of the entry's focal loss — each added to what the accumulator held; the reset stores zeros.
-/
import proofs.«154980_j21131239097026_2_alg».proof.Proof.Gen.KernelIdeal.Skeleton
import proofs.«154980_j21131239097026_2_alg».proof.Proof.KerScalar
import proofs.«154980_j21131239097026_2_alg».proof.Proof.LibGramProducts
import proofs.«154980_j21131239097026_2_alg».proof.Proof.LibKeepdimsTotal
import Idealize.ShloMosaic.Lib.ValueLayout
import Idealize.ShloMosaic.Lib.Pipeline.Value

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

/-! ## The reset's zero blocks -/

theorem pay3_apply (u : Fin 1) (i j : Fin 64) : k0_pay3 (F := Ideal) (ix3 u i j) = 0 := by
  unfold k0_pay3
  exact (shapeCast_ab_1ab_apply _ _ u i j).trans Ideal.ofBits_zero_f32

theorem pay4_apply (u : Fin 1) (i j : Fin 64) : k0_pay4 (F := Ideal) (ix3 u i j) = 0 := by
  unfold k0_pay4
  exact (shapeCast_ab_1ab_apply _ _ u i j).trans Ideal.ofBits_zero_f32

theorem pay5_apply (u : Fin 1) (i j : Fin 64) : k0_pay5 (F := Ideal) (ix3 u i j) = 0 := by
  unfold k0_pay5
  exact (shapeCast_ab_1ab_apply _ _ u i j).trans Ideal.ofBits_zero_f32

theorem pay6_apply (u v w : Fin 1) : k0_pay6 (F := Ideal) (ix3 u v w) = 0 := by
  unfold k0_pay6
  exact (shapeCast_ab_1ab_apply _ _ u v w).trans Ideal.ofBits_zero_f32

/-! ## The masked targets -/

/-- The bf16 copy of the targets is the targets. -/
theorem pay14_apply (x1 : Vec Ideal S4096x64 .f32) (r : Fin 4096) (i : Fin 64) :
    k0_pay14 (F := Ideal) x1 (ix2 r i) = x1 (ix2 r i) := rfl

/-- The bf16 copy of targets times prediction, at (r, i). -/
theorem pay15_apply (x0 x1 : Vec Ideal S4096x64 .f32) (r : Fin 4096) (i : Fin 64) :
    k0_pay15 (F := Ideal) x1 (k0_pay7 x0) (ix2 r i) = x1 (ix2 r i) * predS (x0 (ix2 r i)) := by
  show x1 (ix2 r i) * (FloatOps.sitofp (F := Ideal) .f32 ((Ideal.cmp .oge (Ideal.logistic (x0 (ix2 r i))) half).setWidth 32) : EReal) = _
  rw [predK]
  rfl

/-! ## The three Gram accumulators -/

theorem pay16_apply (x1 : Vec Ideal S4096x64 .f32) (xo : Vec Ideal S1x64x64 .f32) (u : Fin 1) (i j : Fin 64) :
    k0_pay16 (F := Ideal) x1 xo (ix3 u i j) = xo (ix3 (0 : Fin 1) i j) + ∑ r : Fin 4096, x1 (ix2 r i) * x1 (ix2 r j) := by
  unfold k0_pay16
  refine (shapeCast_ab_1ab_apply _ _ u i j).trans ?_
  refine (addf_apply _ _ _).trans ?_
  refine congrArg₂ (· + ·) (shapeCast_1ab_ab_apply xo _ i j) ?_
  exact Cert.LibGramProducts.matmulTN _ rfl rfl rfl rfl rfl rfl none _ _ i j

theorem pay17_apply (x0 x1 : Vec Ideal S4096x64 .f32) (xo : Vec Ideal S1x64x64 .f32) (u : Fin 1) (i j : Fin 64) :
    k0_pay1 (F := Ideal) (k0_pay17 x1 (k0_pay7 x0) xo) (ix3 u i j)
      = xo (ix3 (0 : Fin 1) i j) + ∑ r : Fin 4096, (x1 (ix2 r i) * predS (x0 (ix2 r i))) * x1 (ix2 r j) := by
  unfold k0_pay1 k0_pay17
  refine (shapeCast_ab_1ab_apply _ _ u i j).trans ?_
  refine (addf_apply _ _ _).trans ?_
  refine congrArg₂ (· + ·) (shapeCast_1ab_ab_apply xo _ i j) ?_
  refine (Cert.LibGramProducts.matmulTN _ rfl rfl rfl rfl rfl rfl none _ _ i j).trans ?_
  exact Finset.sum_congr rfl fun r _ => congrArg₂ (· * ·) (pay15_apply x0 x1 r i) (pay14_apply x1 r j)

theorem pay2_apply (x0 x1 : Vec Ideal S4096x64 .f32) (xo : Vec Ideal S1x64x64 .f32) (u : Fin 1) (i j : Fin 64) :
    k0_pay2 (F := Ideal) (k0_pay15 x1 (k0_pay7 x0)) xo (ix3 u i j)
      = xo (ix3 (0 : Fin 1) i j)
        + ∑ r : Fin 4096, (x1 (ix2 r i) * predS (x0 (ix2 r i))) * (x1 (ix2 r j) * predS (x0 (ix2 r j))) := by
  unfold k0_pay2
  refine (shapeCast_ab_1ab_apply _ _ u i j).trans ?_
  refine (addf_apply _ _ _).trans ?_
  refine congrArg₂ (· + ·) (shapeCast_1ab_ab_apply xo _ i j) ?_
  refine (Cert.LibGramProducts.matmulTN _ rfl rfl rfl rfl rfl rfl none _ _ i j).trans ?_
  exact Finset.sum_congr rfl fun r _ => congrArg₂ (· * ·) (pay15_apply x0 x1 r i) (pay15_apply x0 x1 r j)

/-! ## The focal-loss total -/

/-- The log-sigmoid chain of a logit. -/
theorem pay9_apply (x0 : Vec Ideal S4096x64 .f32) (r : Fin 4096) (c : Fin 64) :
    k0_pay9 (F := Ideal) x0 (ix2 r c) = logSig (x0 (ix2 r c)) := logSigK (x0 (ix2 r c))

theorem pay10_apply (x0 : Vec Ideal S4096x64 .f32) (r : Fin 4096) (c : Fin 64) :
    k0_pay10 (F := Ideal) x0 (ix2 r c) = logSig (x0 (ix2 r c)) - x0 (ix2 r c) := by
  unfold k0_pay10
  exact (subf_apply _ _ _).trans (congrArg (· - x0 (ix2 r c)) (pay9_apply x0 r c))

theorem pay11_apply (x0 x1 : Vec Ideal S4096x64 .f32) (x2 : Vec Ideal S1x64 .f32) (r : Fin 4096) (c : Fin 64) :
    k0_pay11 (F := Ideal) x0 x1 x2 (ix2 r c)
      = (x2 (ix2 (0 : Fin 1) c) * x1 (ix2 r c)) * logSig (x0 (ix2 r c)) := by
  unfold k0_pay11
  refine (mulf_apply _ _ _).trans ?_
  refine congrArg₂ (· * ·) ((mulf_apply _ _ _).trans (congrArg (· * x1 (ix2 r c)) ?_)) (pay9_apply x0 r c)
  refine (broadcastTo_1b_ab_apply _ _ r c).trans ?_
  rw [shapeCast_self]

/-- One entry of the focal-loss block. -/
theorem focal_entry (x0 x1 : Vec Ideal S4096x64 .f32) (x2 : Vec Ideal S1x64 .f32) (r : Fin 4096) (c : Fin 64) :
    (mulf (k0_pay8 (F := Ideal) x0 x1)
        (subf (broadcast S4096x64 (Scalar.ofBits (F := Ideal) .f32 0x00000000#32))
          (addf (k0_pay11 x0 x1 x2) (mulf (subf (k0_pay12 (F := Ideal)) x1) (k0_pay10 x0))))) (ix2 r c)
      = focalS (x0 (ix2 r c)) (x1 (ix2 r c)) (x2 (ix2 (0 : Fin 1) c)) := by
  refine (mulf_apply _ _ _).trans ?_
  unfold focalS
  refine congrArg₂ (· * ·) rfl ?_
  refine (subf_apply _ _ _).trans ?_
  refine (congrArg₂ (· - ·) Ideal.ofBits_zero_f32 ((addf_apply _ _ _).trans (congrArg₂ (· + ·) (pay11_apply x0 x1 x2 r c)
    ((mulf_apply _ _ _).trans (congrArg₂ (· * ·) rfl (pay10_apply x0 r c)))))).trans ?_
  rw [zero_sub]
  rfl

theorem pay13_apply (x0 x1 : Vec Ideal S4096x64 .f32) (x2 : Vec Ideal S1x64 .f32) (xo : Vec Ideal S1x1x1 .f32)
    (u v w : Fin 1) :
    k0_pay13 (F := Ideal) x1 (k0_pay8 x0 x1) (k0_pay10 x0) (k0_pay11 x0 x1 x2) k0_pay12 xo (ix3 u v w)
      = xo (ix3 (0 : Fin 1) (0 : Fin 1) (0 : Fin 1))
        + ∑ r : Fin 4096, ∑ c : Fin 64, focalS (x0 (ix2 r c)) (x1 (ix2 r c)) (x2 (ix2 (0 : Fin 1) c)) := by
  obtain rfl : v = 0 := Subsingleton.elim _ _
  obtain rfl : w = 0 := Subsingleton.elim _ _
  unfold k0_pay13
  refine (shapeCast_ab_1ab_apply _ _ u 0 0).trans ?_
  refine (addf_apply _ _ _).trans ?_
  refine congrArg₂ (· + ·) (shapeCast_1ab_ab_apply xo _ 0 0) ?_
  refine (shapeCast_a_1a_apply _ _ 0 0).trans ?_
  refine (Cert.LibRowReduceProducts.colSum_apply _ _ _ _ 0).trans ?_
  refine Finset.sum_congr rfl fun r _ => ?_
  refine (Cert.LibKeepdimsTotal.shapeCast_a_a1_apply _ _ r 0).trans ?_
  refine (Cert.LibRowReduceProducts.rowSum_apply _ _ _ _ r).trans ?_
  exact Finset.sum_congr rfl fun c _ => focal_entry x0 x1 x2 r c

end Cert.KernelIdeal.KerValue

end
-- ==== Proof.GridAcc.lean ====
/-
  An accumulator over the grid points `0, 1, …, N-1`, taken in order, that restarts at every sixteenth point: after
  point `n` it holds the sum of the terms of the points of `n`'s group of sixteen up to `n`. At the last point of a
  group that is the group's whole sum.
-/
import Mathlib

open scoped BigOperators

namespace Cert.GridAcc

/-- Restart at the multiples of 16 with the point's own term, add the point's term otherwise: the value after point
    `n` is the sum over the points of its group so far. -/
theorem acc_group {α : Type*} [AddCommMonoid α] (N : ℕ) (a : (n : ℕ) → n < N → α) (g : ℕ → α)
    (h0 : ∀ n (h : n < N), n % 16 = 0 → a n h = g n)
    (hs : ∀ n (h : n < N), ¬ n % 16 = 0 → a n h = a (n - 1) (Nat.lt_of_le_of_lt (Nat.sub_le _ _) h) + g n) :
    ∀ n (h : n < N), a n h = ∑ q ∈ Finset.range (n % 16 + 1), g (n - n % 16 + q)
  | 0, h => by rw [h0 0 h rfl]; simp
  | n + 1, h => by
    by_cases hm : (n + 1) % 16 = 0
    · rw [h0 _ h hm, hm]; simp
    · rw [hs _ h hm, Finset.sum_range_succ]
      have e1 : n + 1 - 1 = n := rfl
      have ih := acc_group N a g h0 hs n (Nat.lt_of_succ_lt h)
      have e2 : n % 16 + 1 = (n + 1) % 16 := by omega
      have e3 : n - n % 16 = n + 1 - (n + 1) % 16 := by omega
      have e4 : n + 1 - (n + 1) % 16 + (n + 1) % 16 = n + 1 := by omega
      rw [e4]
      congr 1
      show a n _ = _
      rw [ih, e2, e3]

/-- At the last point of group `p` the accumulator holds the group's sum. -/
theorem acc_group_last {α : Type*} [AddCommMonoid α] (N : ℕ) (a : (n : ℕ) → n < N → α) (g : ℕ → α)
    (h0 : ∀ n (h : n < N), n % 16 = 0 → a n h = g n)
    (hs : ∀ n (h : n < N), ¬ n % 16 = 0 → a n h = a (n - 1) (Nat.lt_of_le_of_lt (Nat.sub_le _ _) h) + g n)
    (p : ℕ) (h : 16 * p + 15 < N) : a (16 * p + 15) h = ∑ q : Fin 16, g (16 * p + q.val) := by
  rw [acc_group N a g h0 hs _ h]
  have e1 : (16 * p + 15) % 16 + 1 = 16 := by omega
  have e2 : 16 * p + 15 - (16 * p + 15) % 16 = 16 * p := by omega
  rw [e1, e2]
  exact Finset.sum_range fun q => g (16 * p + q)

end Cert.GridAcc
-- ==== Proof.KerChain.lean ====
/-
  The four accumulators point by point, at the ideal values: what each output's staging buffer holds after grid point
  `n` is the sum, over the points of `n`'s group of sixteen so far, of the point's tile term — by induction on the
  point, the two control cases being "first point of a group" (restart from zero) and "any other point" (add).
-/
import proofs.«154980_j21131239097026_2_alg».proof.Proof.Gen.KernelIdeal.Frame
import proofs.«154980_j21131239097026_2_alg».proof.Proof.KerCases
import proofs.«154980_j21131239097026_2_alg».proof.Proof.KerPay
import proofs.«154980_j21131239097026_2_alg».proof.Proof.GridAcc

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

variable (m : (ℓ : Loc nD τ sig) → Buf (Elt Ideal) ℓ) (c : Dev nD)

/-- The block of logits, of targets and the row of label weights the body sees at point `n` (zero past the grid). -/
def xb (n : ℕ) : Vec Ideal S4096x64 .f32 := if h : n < cfg0.N then iblk m c 0 ⟨n, h⟩ else fun _ => 0
def tb (n : ℕ) : Vec Ideal S4096x64 .f32 := if h : n < cfg0.N then iblk m c 1 ⟨n, h⟩ else fun _ => 0
def wb (n : ℕ) : Vec Ideal S1x64 .f32 := if h : n < cfg0.N then iblk m c 2 ⟨n, h⟩ else fun _ => 0

/-- Point `n`'s terms: the tile's share of `tᵀ t`, of `(t·pred)ᵀ t`, of `(t·pred)ᵀ (t·pred)` and of the focal total. -/
def gT (n : ℕ) (i j : Fin 64) : EReal := ∑ r : Fin 4096, tb m c n (ix2 r i) * tb m c n (ix2 r j)
def gG (n : ℕ) (i j : Fin 64) : EReal :=
  ∑ r : Fin 4096, (tb m c n (ix2 r i) * predS (xb m c n (ix2 r i))) * tb m c n (ix2 r j)
def gH (n : ℕ) (i j : Fin 64) : EReal :=
  ∑ r : Fin 4096, (tb m c n (ix2 r i) * predS (xb m c n (ix2 r i))) * (tb m c n (ix2 r j) * predS (xb m c n (ix2 r j)))
def gF (n : ℕ) : EReal :=
  ∑ r : Fin 4096, ∑ k : Fin 64, focalS (xb m c n (ix2 r k)) (tb m c n (ix2 r k)) (wb m c n (ix2 (0 : Fin 1) k))

/-- Output 3 at a point that opens a group: the point's own term. -/
theorem acc3_A (n : ℕ) (h : n < cfg0.N) (h0 : n % 16 = 0) (i j : Fin 64) :
    (outsAt0 m c n h).1 (ix3 (0 : Fin 1) i j) = gT m c n i j := by
  have e := congrArg Prod.fst (outsAt0_A m c (⟨n, h⟩ : Fin cfg0.N) h0)
  refine (congrFun (e.trans (out_A_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)))) (ix3 (0 : Fin 1) i j)).trans ?_
  refine (pay16_apply (iblk m c 1 (⟨n, h⟩ : Fin cfg0.N)) (k0_pay3 (F := Ideal)) 0 i j).trans ?_
  rw [pay3_apply, zero_add]
  simp only [gT, xb, tb, wb, dif_pos h]

/-- Output 3 at a point that continues a group: what the point before left plus the point's term. -/
theorem acc3_B (n : ℕ) (h : n < cfg0.N) (h0 : ¬ n % 16 = 0) (i j : Fin 64) :
    (outsAt0 m c n h).1 (ix3 (0 : Fin 1) i j)
      = (outsAt0 m c (n - 1) (Nat.lt_of_le_of_lt (Nat.sub_le _ _) h)).1 (ix3 (0 : Fin 1) i j) + gT m c n i j := by
  have e := congrArg Prod.fst (outsAt0_B m c (⟨n, h⟩ : Fin cfg0.N) h0)
  refine (congrFun (e.trans (out_B_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (fun hh => h0 ((hcond0_0 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).1 (outsAt0 m c (n - 1) (Nat.lt_of_le_of_lt (Nat.sub_le _ _) h)).2.1 (outsAt0 m c (n - 1) (Nat.lt_of_le_of_lt (Nat.sub_le _ _) h)).2.2.1 (outsAt0 m c (n - 1) (Nat.lt_of_le_of_lt (Nat.sub_le _ _) h)).2.2.2)) (ix3 (0 : Fin 1) i j)).trans ?_
  refine (pay16_apply (iblk m c 1 (⟨n, h⟩ : Fin cfg0.N)) (outsAt0 m c (n - 1) (Nat.lt_of_le_of_lt (Nat.sub_le _ _) h)).1 0 i j).trans ?_
  simp only [gT, xb, tb, wb, dif_pos h]

/-- So at the last point of group `p` output 3 holds the group's sum. -/
theorem acc3_last (p : ℕ) (h : 16 * p + 15 < cfg0.N) (i j : Fin 64) :
    (outsAt0 m c (16 * p + 15) h).1 (ix3 (0 : Fin 1) i j) = ∑ q : Fin 16, gT m c (16 * p + q.val) i j :=
  Cert.GridAcc.acc_group_last cfg0.N (fun n h => (outsAt0 m c n h).1 (ix3 (0 : Fin 1) i j)) (fun n => gT m c n i j)
    (fun n h h0 => acc3_A m c n h h0 i j) (fun n h h0 => acc3_B m c n h h0 i j) p h

/-- Output 4 at a point that opens a group: the point's own term. -/
theorem acc4_A (n : ℕ) (h : n < cfg0.N) (h0 : n % 16 = 0) (i j : Fin 64) :
    (outsAt0 m c n h).2.1 (ix3 (0 : Fin 1) i j) = gG m c n i j := by
  have e := congrArg (fun p => p.2.1) (outsAt0_A m c (⟨n, h⟩ : Fin cfg0.N) h0)
  refine (congrFun (e.trans (out_A_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)))) (ix3 (0 : Fin 1) i j)).trans ?_
  refine (pay17_apply (iblk m c 0 (⟨n, h⟩ : Fin cfg0.N)) (iblk m c 1 (⟨n, h⟩ : Fin cfg0.N)) (k0_pay4 (F := Ideal)) 0 i j).trans ?_
  rw [pay4_apply, zero_add]
  simp only [gG, xb, tb, wb, dif_pos h]

/-- Output 4 at a point that continues a group: what the point before left plus the point's term. -/
theorem acc4_B (n : ℕ) (h : n < cfg0.N) (h0 : ¬ n % 16 = 0) (i j : Fin 64) :
    (outsAt0 m c n h).2.1 (ix3 (0 : Fin 1) i j)
      = (outsAt0 m c (n - 1) (Nat.lt_of_le_of_lt (Nat.sub_le _ _) h)).2.1 (ix3 (0 : Fin 1) i j) + gG m c n i j := by
  have e := congrArg (fun p => p.2.1) (outsAt0_B m c (⟨n, h⟩ : Fin cfg0.N) h0)
  refine (congrFun (e.trans (out_B_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (fun hh => h0 ((hcond0_0 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).1 (outsAt0 m c (n - 1) (Nat.lt_of_le_of_lt (Nat.sub_le _ _) h)).2.1 (outsAt0 m c (n - 1) (Nat.lt_of_le_of_lt (Nat.sub_le _ _) h)).2.2.1 (outsAt0 m c (n - 1) (Nat.lt_of_le_of_lt (Nat.sub_le _ _) h)).2.2.2)) (ix3 (0 : Fin 1) i j)).trans ?_
  refine (pay17_apply (iblk m c 0 (⟨n, h⟩ : Fin cfg0.N)) (iblk m c 1 (⟨n, h⟩ : Fin cfg0.N)) (outsAt0 m c (n - 1) (Nat.lt_of_le_of_lt (Nat.sub_le _ _) h)).2.1 0 i j).trans ?_
  simp only [gG, xb, tb, wb, dif_pos h]

/-- So at the last point of group `p` output 4 holds the group's sum. -/
theorem acc4_last (p : ℕ) (h : 16 * p + 15 < cfg0.N) (i j : Fin 64) :
    (outsAt0 m c (16 * p + 15) h).2.1 (ix3 (0 : Fin 1) i j) = ∑ q : Fin 16, gG m c (16 * p + q.val) i j :=
  Cert.GridAcc.acc_group_last cfg0.N (fun n h => (outsAt0 m c n h).2.1 (ix3 (0 : Fin 1) i j)) (fun n => gG m c n i j)
    (fun n h h0 => acc4_A m c n h h0 i j) (fun n h h0 => acc4_B m c n h h0 i j) p h

/-- Output 5 at a point that opens a group: the point's own term. -/
theorem acc5_A (n : ℕ) (h : n < cfg0.N) (h0 : n % 16 = 0) (i j : Fin 64) :
    (outsAt0 m c n h).2.2.1 (ix3 (0 : Fin 1) i j) = gH m c n i j := by
  have e := congrArg (fun p => p.2.2.1) (outsAt0_A m c (⟨n, h⟩ : Fin cfg0.N) h0)
  refine (congrFun (e.trans (out_A_5 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)))) (ix3 (0 : Fin 1) i j)).trans ?_
  refine (pay2_apply (iblk m c 0 (⟨n, h⟩ : Fin cfg0.N)) (iblk m c 1 (⟨n, h⟩ : Fin cfg0.N)) (k0_pay5 (F := Ideal)) 0 i j).trans ?_
  rw [pay5_apply, zero_add]
  simp only [gH, xb, tb, wb, dif_pos h]

/-- Output 5 at a point that continues a group: what the point before left plus the point's term. -/
theorem acc5_B (n : ℕ) (h : n < cfg0.N) (h0 : ¬ n % 16 = 0) (i j : Fin 64) :
    (outsAt0 m c n h).2.2.1 (ix3 (0 : Fin 1) i j)
      = (outsAt0 m c (n - 1) (Nat.lt_of_le_of_lt (Nat.sub_le _ _) h)).2.2.1 (ix3 (0 : Fin 1) i j) + gH m c n i j := by
  have e := congrArg (fun p => p.2.2.1) (outsAt0_B m c (⟨n, h⟩ : Fin cfg0.N) h0)
  refine (congrFun (e.trans (out_B_5 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (fun hh => h0 ((hcond0_0 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).1 (outsAt0 m c (n - 1) (Nat.lt_of_le_of_lt (Nat.sub_le _ _) h)).2.1 (outsAt0 m c (n - 1) (Nat.lt_of_le_of_lt (Nat.sub_le _ _) h)).2.2.1 (outsAt0 m c (n - 1) (Nat.lt_of_le_of_lt (Nat.sub_le _ _) h)).2.2.2)) (ix3 (0 : Fin 1) i j)).trans ?_
  refine (pay2_apply (iblk m c 0 (⟨n, h⟩ : Fin cfg0.N)) (iblk m c 1 (⟨n, h⟩ : Fin cfg0.N)) (outsAt0 m c (n - 1) (Nat.lt_of_le_of_lt (Nat.sub_le _ _) h)).2.2.1 0 i j).trans ?_
  simp only [gH, xb, tb, wb, dif_pos h]

/-- So at the last point of group `p` output 5 holds the group's sum. -/
theorem acc5_last (p : ℕ) (h : 16 * p + 15 < cfg0.N) (i j : Fin 64) :
    (outsAt0 m c (16 * p + 15) h).2.2.1 (ix3 (0 : Fin 1) i j) = ∑ q : Fin 16, gH m c (16 * p + q.val) i j :=
  Cert.GridAcc.acc_group_last cfg0.N (fun n h => (outsAt0 m c n h).2.2.1 (ix3 (0 : Fin 1) i j)) (fun n => gH m c n i j)
    (fun n h h0 => acc5_A m c n h h0 i j) (fun n h h0 => acc5_B m c n h h0 i j) p h

/-- Output 6 at a point that opens a group: the point's own term. -/
theorem acc6_A (n : ℕ) (h : n < cfg0.N) (h0 : n % 16 = 0) :
    (outsAt0 m c n h).2.2.2 (ix3 (0 : Fin 1) (0 : Fin 1) (0 : Fin 1)) = gF m c n := by
  have e := congrArg (fun p => p.2.2.2) (outsAt0_A m c (⟨n, h⟩ : Fin cfg0.N) h0)
  refine (congrFun (e.trans (out_A_6 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) ((hcond0_0 (⟨n, h⟩ : Fin cfg0.N)).mpr h0) (iblk m c 0 (⟨n, h⟩ : Fin cfg0.N)) (iblk m c 1 (⟨n, h⟩ : Fin cfg0.N)) (iblk m c 2 (⟨n, h⟩ : Fin cfg0.N)))) (ix3 (0 : Fin 1) (0 : Fin 1) (0 : Fin 1))).trans ?_
  refine (pay13_apply (iblk m c 0 (⟨n, h⟩ : Fin cfg0.N)) (iblk m c 1 (⟨n, h⟩ : Fin cfg0.N)) (iblk m c 2 (⟨n, h⟩ : Fin cfg0.N)) (k0_pay6 (F := Ideal)) 0 0 0).trans ?_
  rw [pay6_apply, zero_add]
  simp only [gF, xb, tb, wb, dif_pos h]

/-- Output 6 at a point that continues a group: what the point before left plus the point's term. -/
theorem acc6_B (n : ℕ) (h : n < cfg0.N) (h0 : ¬ n % 16 = 0) :
    (outsAt0 m c n h).2.2.2 (ix3 (0 : Fin 1) (0 : Fin 1) (0 : Fin 1))
      = (outsAt0 m c (n - 1) (Nat.lt_of_le_of_lt (Nat.sub_le _ _) h)).2.2.2 (ix3 (0 : Fin 1) (0 : Fin 1) (0 : Fin 1)) + gF m c n := by
  have e := congrArg (fun p => p.2.2.2) (outsAt0_B m c (⟨n, h⟩ : Fin cfg0.N) h0)
  refine (congrFun (e.trans (out_B_6 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (fun hh => h0 ((hcond0_0 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).1 (outsAt0 m c (n - 1) (Nat.lt_of_le_of_lt (Nat.sub_le _ _) h)).2.1 (outsAt0 m c (n - 1) (Nat.lt_of_le_of_lt (Nat.sub_le _ _) h)).2.2.1 (outsAt0 m c (n - 1) (Nat.lt_of_le_of_lt (Nat.sub_le _ _) h)).2.2.2)) (ix3 (0 : Fin 1) (0 : Fin 1) (0 : Fin 1))).trans ?_
  refine (pay13_apply (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.2 0 0 0).trans ?_
  simp only [gF, xb, tb, wb, dif_pos h]

/-- So at the last point of group `p` output 6 holds the group's sum. -/
theorem acc6_last (p : ℕ) (h : 16 * p + 15 < cfg0.N) :
    (outsAt0 m c (16 * p + 15) h).2.2.2 (ix3 (0 : Fin 1) (0 : Fin 1) (0 : Fin 1)) = ∑ q : Fin 16, gF m c (16 * p + q.val) :=
  Cert.GridAcc.acc_group_last cfg0.N (fun n h => (outsAt0 m c n h).2.2.2 (ix3 (0 : Fin 1) (0 : Fin 1) (0 : Fin 1))) (fun n => gF m c n)
    (fun n h h0 => acc6_A m c n h h0) (fun n h h0 => acc6_B m c n h h0) p h

end Cert.KernelIdeal.KerValue

end
-- ==== Proof.KerFinal.lean ====
/-
  What the four output arrays hold when the region ends, at the ideal values: slice `p` of each [2, …] array is written
  back once, after the last of the sixteen points of group `p`, and then holds the sum of the group's sixteen tile terms.
-/
import proofs.«154980_j21131239097026_2_alg».proof.Proof.KerChain
import Idealize.ShloMosaic.Lib.Pipeline.Value

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

variable (m : (ℓ : Loc nD τ sig) → Buf (Elt Ideal) ℓ) (c : Dev nD)

/-- A [2, 64, 64] array whose slice `p` is the sum of sixteen tile terms. -/
def arrM (g : ℕ → Fin 64 → Fin 64 → EReal) : S2x64x64.Idx → EReal :=
  fun idx => ∑ q : Fin 16, g (16 * (idx 0).val + q.val) (idx 1) (idx 2)

/-- A [2, 1, 1] array whose entry `p` is the sum of sixteen tile terms. -/
def arrS (g : ℕ → EReal) : S2x1x1.Idx → EReal := fun idx => ∑ q : Fin 16, g (16 * (idx 0).val + q.val)

theorem arrM_apply (g : ℕ → Fin 64 → Fin 64 → EReal) (idx : S2x64x64.Idx) (p : ℕ) (i j : Fin 64)
    (h0 : (idx 0).val = p) (h1 : (idx 1).val = i.val) (h2 : (idx 2).val = j.val) :
    arrM g idx = ∑ q : Fin 16, g (16 * p + q.val) i j := by
  obtain ⟨a, b, d, rfl⟩ : ∃ (a : Fin 2) (b d : Fin 64), idx = ix3 a b d := ⟨idx 0, idx 1, idx 2, eq_ix3 idx⟩
  obtain rfl : b = i := Fin.ext h1
  obtain rfl : d = j := Fin.ext h2
  show ∑ q : Fin 16, g (16 * a.val + q.val) b d = _
  rw [show a.val = p from h0]

theorem arrS_apply (g : ℕ → EReal) (idx : S2x1x1.Idx) (p : ℕ) (h0 : (idx 0).val = p) :
    arrS g idx = ∑ q : Fin 16, g (16 * p + q.val) := by
  show ∑ q : Fin 16, g (16 * (idx 0).val + q.val) = _
  rw [h0]

/-- The accumulators at the last point of a group, the point given by its number. -/
theorem acc3_at (n : ℕ) (h : n < cfg0.N) (p : ℕ) (e : n = 16 * p + 15) (i j : Fin 64) :
    (outsAt0 m c n h).1 (ix3 (0 : Fin 1) i j) = ∑ q : Fin 16, gT m c (16 * p + q.val) i j := by
  subst e; exact acc3_last m c p h i j
theorem acc4_at (n : ℕ) (h : n < cfg0.N) (p : ℕ) (e : n = 16 * p + 15) (i j : Fin 64) :
    (outsAt0 m c n h).2.1 (ix3 (0 : Fin 1) i j) = ∑ q : Fin 16, gG m c (16 * p + q.val) i j := by
  subst e; exact acc4_last m c p h i j
theorem acc5_at (n : ℕ) (h : n < cfg0.N) (p : ℕ) (e : n = 16 * p + 15) (i j : Fin 64) :
    (outsAt0 m c n h).2.2.1 (ix3 (0 : Fin 1) i j) = ∑ q : Fin 16, gH m c (16 * p + q.val) i j := by
  subst e; exact acc5_last m c p h i j
theorem acc6_at (n : ℕ) (h : n < cfg0.N) (p : ℕ) (e : n = 16 * p + 15) :
    (outsAt0 m c n h).2.2.2 (ix3 (0 : Fin 1) (0 : Fin 1) (0 : Fin 1)) = ∑ q : Fin 16, gF m c (16 * p + q.val) := by
  subst e; exact acc6_last m c p h

/-- The printed index maps of the four outputs, decided over the grid: block `(t / 16, 0, 0)`. -/
theorem idx_facts3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem idx_facts5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx_facts6 : ∀ t : Fin cfg0.N, win0_6.index t (0 : Fin 3) = t.val / 16 ∧ win0_6.index t (1 : Fin 3) = 0 ∧ win0_6.index t (2 : Fin 3) = 0 :=
  (by decide +kernel : ∀ t : Fin grid0.N, _)

/-- Point `t`, the last of its group, writes back to output 3's array the block holding the group's sums. -/
theorem flushed3_eq (t : Fin cfg0.N) (hf : (cfg0.win 3).flush t = true) :
    (dats m 0 c).flushed 3 t = ((cfg0.win 3).blk t).view.read (Elt Ideal) (arrM (gT m c)) := by
  have ht : t.val % 16 = 15 := (flush0_3 t).mp hf
  have hN : t.val < 32 := lt_of_lt_of_eq t.isLt (show cfg0.N = 32 from N_0)
  obtain ⟨e0, e1, e2⟩ := idx_facts3 t
  show (cfg0.win 3).cut (grid0.coords t) ((dats m 0 c).after 3 t) = _
  rw [after0_3]
  funext y
  obtain ⟨u, i, j, rfl⟩ : ∃ (u : Fin 1) (i j : Fin 64), y = ix3 u i j := ⟨y 0, y 1, y 2, eq_ix3 y⟩
  obtain rfl : u = 0 := Subsingleton.elim _ _
  show (outsAt0 m c t.val t.isLt).1 (ix3 (0 : Fin 1) i j) = arrM (gT m c) (((cfg0.win 3).blk t).view.emb (ix3 (0 : Fin 1) i j))
  rw [acc3_at m c t.val t.isLt (t.val / 16) (by omega) i j]
  refine (arrM_apply (gT m c) _ (t.val / 16) i j ?_ ?_ ?_).symm
  · show win0_3.index t (0 : Fin 3) * 1 + 1 * 0 = t.val / 16
    rw [e0]; omega
  · show win0_3.index t (1 : Fin 3) * 64 + 1 * i.val = i.val
    rw [e1]; omega
  · show win0_3.index t (2 : Fin 3) * 64 + 1 * j.val = j.val
    rw [e2]; omega

/-- Every entry of output 3's array is in the block of its group's last point. -/
theorem cover3 (i : S2x64x64.Idx) : ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 64 := (i 2).isLt
  have hN : cfg0.N = 32 := N_0
  have hN' : grid0.N = 32 := N_0
  obtain ⟨t, ht⟩ : ∃ t : Fin cfg0.N, t.val = 16 * (i 0).val + 15 := ⟨⟨16 * (i 0).val + 15, by omega⟩, rfl⟩
  refine ⟨t, (flush0_3 t).mpr (by rw [ht]; omega), ?_⟩
  obtain ⟨e0, e1, e2⟩ := idx_facts3 t
  have e0' : win0_3.index t (0 : Fin 3) = (i 0).val := by rw [e0, ht]; omega
  show i ∈ ((View.whole main_v1_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0']; omega
  | ⟨1, _⟩ => show win0_3.index t (1 : Fin 3) * 64 ≤ (i 1).val ∧ (i 1).val < win0_3.index t (1 : Fin 3) * 64 + 64; rw [e1]; omega
  | ⟨2, _⟩ => show win0_3.index t (2 : Fin 3) * 64 ≤ (i 2).val ∧ (i 2).val < win0_3.index t (2 : Fin 3) * 64 + 64; rw [e2]; omega

/-- So output 3's array ends holding, per core slice, the sums over the slice's sixteen tiles. -/
theorem final3 : (dats m 0 c).arrAt 3 cfg0.N = arrM (gT m c) :=
  (dats m 0 c).arrAt_eq_of_cover 3 (arrM (gT m c)) (flushed3_eq m c) (cover3)

/-- Point `t`, the last of its group, writes back to output 4's array the block holding the group's sums. -/
theorem flushed4_eq (t : Fin cfg0.N) (hf : (cfg0.win 4).flush t = true) :
    (dats m 0 c).flushed 4 t = ((cfg0.win 4).blk t).view.read (Elt Ideal) (arrM (gG m c)) := by
  have ht : t.val % 16 = 15 := (flush0_4 t).mp hf
  have hN : t.val < 32 := lt_of_lt_of_eq t.isLt (show cfg0.N = 32 from N_0)
  obtain ⟨e0, e1, e2⟩ := idx_facts4 t
  show (cfg0.win 4).cut (grid0.coords t) ((dats m 0 c).after 4 t) = _
  rw [after0_4]
  funext y
  obtain ⟨u, i, j, rfl⟩ : ∃ (u : Fin 1) (i j : Fin 64), y = ix3 u i j := ⟨y 0, y 1, y 2, eq_ix3 y⟩
  obtain rfl : u = 0 := Subsingleton.elim _ _
  show (outsAt0 m c t.val t.isLt).2.1 (ix3 (0 : Fin 1) i j) = arrM (gG m c) (((cfg0.win 4).blk t).view.emb (ix3 (0 : Fin 1) i j))
  rw [acc4_at m c t.val t.isLt (t.val / 16) (by omega) i j]
  refine (arrM_apply (gG m c) _ (t.val / 16) i j ?_ ?_ ?_).symm
  · show win0_4.index t (0 : Fin 3) * 1 + 1 * 0 = t.val / 16
    rw [e0]; omega
  · show win0_4.index t (1 : Fin 3) * 64 + 1 * i.val = i.val
    rw [e1]; omega
  · show win0_4.index t (2 : Fin 3) * 64 + 1 * j.val = j.val
    rw [e2]; omega

/-- Every entry of output 4's array is in the block of its group's last point. -/
theorem cover4 (i : S2x64x64.Idx) : ∃ t : Fin cfg0.N, (cfg0.win 4).flush t = true ∧ i ∈ ((cfg0.win 4).blk t).view.set := by
  have h0 : (i 0).val < 2 := (i 0).isLt
  have h1 : (i 1).val < 64 := (i 1).isLt
  have h2 : (i 2).val < 64 := (i 2).isLt
  have hN : cfg0.N = 32 := N_0
  have hN' : grid0.N = 32 := N_0
  obtain ⟨t, ht⟩ : ∃ t : Fin cfg0.N, t.val = 16 * (i 0).val + 15 := ⟨⟨16 * (i 0).val + 15, by omega⟩, rfl⟩
  refine ⟨t, (flush0_4 t).mpr (by rw [ht]; omega), ?_⟩
  obtain ⟨e0, e1, e2⟩ := idx_facts4 t
  have e0' : win0_4.index t (0 : Fin 3) = (i 0).val := by rw [e0, ht]; omega
  show i ∈ ((View.whole main_v1_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0']; omega
  | ⟨1, _⟩ => show win0_4.index t (1 : Fin 3) * 64 ≤ (i 1).val ∧ (i 1).val < win0_4.index t (1 : Fin 3) * 64 + 64; rw [e1]; omega
  | ⟨2, _⟩ => show win0_4.index t (2 : Fin 3) * 64 ≤ (i 2).val ∧ (i 2).val < win0_4.index t (2 : Fin 3) * 64 + 64; rw [e2]; omega

/-- So output 4's array ends holding, per core slice, the sums over the slice's sixteen tiles. -/
theorem final4 : (dats m 0 c).arrAt 4 cfg0.N = arrM (gG m c) :=
  (dats m 0 c).arrAt_eq_of_cover 4 (arrM (gG m c)) (flushed4_eq m c) (cover4)

/-- Point `t`, the last of its group, writes back to output 5's array the block holding the group's sums. -/
theorem flushed5_eq (t : Fin cfg0.N) (hf : (cfg0.win 5).flush t = true) :
    (dats m 0 c).flushed 5 t = ((cfg0.win 5).blk t).view.read (Elt Ideal) (arrM (gH m c)) := by
  have ht : t.val % 16 = 15 := (flush0_5 t).mp hf
  have hN : t.val < 32 := lt_of_lt_of_eq t.isLt (show cfg0.N = 32 from N_0)
  obtain ⟨e0, e1, e2⟩ := idx_facts5 t
  show (cfg0.win 5).cut (grid0.coords t) ((dats m 0 c).after 5 t) = _
  rw [after0_5]
  funext y
  obtain ⟨u, i, j, rfl⟩ : ∃ (u : Fin 1) (i j : Fin 64), y = ix3 u i j := ⟨y 0, y 1, y 2, eq_ix3 y⟩
  obtain rfl : u = 0 := Subsingleton.elim _ _
  show (outsAt0 m c t.val t.isLt).2.2.1 (ix3 (0 : Fin 1) i j) = arrM (gH m c) (((cfg0.win 5).blk t).view.emb (ix3 (0 : Fin 1) i j))
  rw [acc5_at m c t.val t.isLt (t.val / 16) (by omega) i j]
  refine (arrM_apply (gH m c) _ (t.val / 16) i j ?_ ?_ ?_).symm
  · show win0_5.index t (0 : Fin 3) * 1 + 1 * 0 = t.val / 16
    rw [e0]; omega
  · show win0_5.index t (1 : Fin 3) * 64 + 1 * i.val = i.val
    rw [e1]; omega
  · show win0_5.index t (2 : Fin 3) * 64 + 1 * j.val = j.val
    rw [e2]; omega

/-- Every entry of output 5's array is in the block of its group's last point. -/
theorem cover5 (i : S2x64x64.Idx) : ∃ t : Fin cfg0.N, (cfg0.win 5).flush t = true ∧ i ∈ ((cfg0.win 5).blk t).view.set := by
  have h0 : (i 0).val < 2 := (i 0).isLt
  have h1 : (i 1).val < 64 := (i 1).isLt
  have h2 : (i 2).val < 64 := (i 2).isLt
  have hN : cfg0.N = 32 := N_0
  have hN' : grid0.N = 32 := N_0
  obtain ⟨t, ht⟩ : ∃ t : Fin cfg0.N, t.val = 16 * (i 0).val + 15 := ⟨⟨16 * (i 0).val + 15, by omega⟩, rfl⟩
  refine ⟨t, (flush0_5 t).mpr (by rw [ht]; omega), ?_⟩
  obtain ⟨e0, e1, e2⟩ := idx_facts5 t
  have e0' : win0_5.index t (0 : Fin 3) = (i 0).val := by rw [e0, ht]; omega
  show i ∈ ((View.whole main_v1_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0']; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 64 ≤ (i 2).val ∧ (i 2).val < win0_5.index t (2 : Fin 3) * 64 + 64; rw [e2]; omega

/-- So output 5's array ends holding, per core slice, the sums over the slice's sixteen tiles. -/
theorem final5 : (dats m 0 c).arrAt 5 cfg0.N = arrM (gH m c) :=
  (dats m 0 c).arrAt_eq_of_cover 5 (arrM (gH m c)) (flushed5_eq m c) (cover5)

/-- Point `t`, the last of its group, writes back to the focal total's array the group's sum. -/
theorem flushed6_eq (t : Fin cfg0.N) (hf : (cfg0.win 6).flush t = true) :
    (dats m 0 c).flushed 6 t = ((cfg0.win 6).blk t).view.read (Elt Ideal) (arrS (gF m c)) := by
  have ht : t.val % 16 = 15 := (flush0_6 t).mp hf
  have hN : t.val < 32 := lt_of_lt_of_eq t.isLt (show cfg0.N = 32 from N_0)
  obtain ⟨e0, e1, e2⟩ := idx_facts6 t
  show (cfg0.win 6).cut (grid0.coords t) ((dats m 0 c).after 6 t) = _
  rw [after0_6]
  funext y
  obtain ⟨u, v, w, rfl⟩ : ∃ (u v w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  show (outsAt0 m c t.val t.isLt).2.2.2 (ix3 (0 : Fin 1) (0 : Fin 1) (0 : Fin 1)) = arrS (gF m c) (((cfg0.win 6).blk t).view.emb (ix3 (0 : Fin 1) (0 : Fin 1) (0 : Fin 1)))
  rw [acc6_at m c t.val t.isLt (t.val / 16) (by omega)]
  refine (arrS_apply (gF m c) _ (t.val / 16) ?_).symm
  show win0_6.index t (0 : Fin 3) * 1 + 1 * 0 = t.val / 16
  rw [e0]; omega

theorem cover6 (i : S2x1x1.Idx) : ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hN : cfg0.N = 32 := N_0
  have hN' : grid0.N = 32 := N_0
  obtain ⟨t, ht⟩ : ∃ t : Fin cfg0.N, t.val = 16 * (i 0).val + 15 := ⟨⟨16 * (i 0).val + 15, by omega⟩, rfl⟩
  refine ⟨t, (flush0_6 t).mpr (by rw [ht]; omega), ?_⟩
  obtain ⟨e0, e1, e2⟩ := idx_facts6 t
  have e0' : win0_6.index t (0 : Fin 3) = (i 0).val := by rw [e0, ht]; omega
  show i ∈ ((View.whole main_v1_3).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; rw [e0']; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 1 ≤ (i 2).val ∧ (i 2).val < win0_6.index t (2 : Fin 3) * 1 + 1; rw [e2]; omega

theorem final6 : (dats m 0 c).arrAt 6 cfg0.N = arrS (gF m c) :=
  (dats m 0 c).arrAt_eq_of_cover 6 (arrS (gF m c)) (flushed6_eq m c) (cover6)

end Cert.KernelIdeal.KerValue

end
-- ==== Proof.TileSum.lean ====
/-
  The 131072 rows, read in tiles.

  The kernel walks the rows as 2 outer steps of 16 blocks of 4096 rows: row (16 p + q) 4096 + r for p < 2, q < 16,
  r < 4096. Every row below 131072 = 2 · 16 · 4096 is met exactly once, so a sum over the three counters is the sum
  over all rows. The proof counts in ranges of natural numbers: a range of length a · b is a ranges of length b laid
  end to end.
-/
import Mathlib

open scoped BigOperators

namespace Cert.FocalGram

/-- A sum over the first a · b natural numbers, split into a consecutive blocks of length b. -/
theorem sum_range_tiles {α : Type*} [AddCommMonoid α] (a b : ℕ) (g : ℕ → α) :
    ∑ k ∈ Finset.range a, ∑ l ∈ Finset.range b, g (k * b + l) = ∑ s ∈ Finset.range (a * b), g s := by
  induction a with
  | zero => simp
  | succ a ih => rw [Finset.sum_range_succ, ih, add_one_mul, Finset.sum_range_add]

/-- The rows of the three nested counters are all the rows, each once. -/
theorem sum_rows_tiled {α : Type*} [AddCommMonoid α] (f : ℕ → α) :
    ∑ p : Fin 2, ∑ q : Fin 16, ∑ r : Fin 4096, f ((16 * p.val + q.val) * 4096 + r.val)
      = ∑ b : Fin 131072, f b.val := by
  have h3 : ∀ n : ℕ, ∑ r : Fin 4096, f (n * 4096 + r.val) = ∑ r ∈ Finset.range 4096, f (n * 4096 + r) :=
    fun n => Fin.sum_univ_eq_sum_range (fun r => f (n * 4096 + r)) 4096
  have h2 : ∀ p : ℕ, ∑ q : Fin 16, ∑ r ∈ Finset.range 4096, f ((16 * p + q.val) * 4096 + r)
      = ∑ q ∈ Finset.range 16, ∑ r ∈ Finset.range 4096, f ((16 * p + q) * 4096 + r) :=
    fun p => Fin.sum_univ_eq_sum_range (fun q => ∑ r ∈ Finset.range 4096, f ((16 * p + q) * 4096 + r)) 16
  have h1 : ∑ p : Fin 2, ∑ q ∈ Finset.range 16, ∑ r ∈ Finset.range 4096, f ((16 * p.val + q) * 4096 + r)
      = ∑ p ∈ Finset.range 2, ∑ q ∈ Finset.range 16, ∑ r ∈ Finset.range 4096, f ((16 * p + q) * 4096 + r) :=
    Fin.sum_univ_eq_sum_range
      (fun p => ∑ q ∈ Finset.range 16, ∑ r ∈ Finset.range 4096, f ((16 * p + q) * 4096 + r)) 2
  have e1 : ∑ p ∈ Finset.range 2, ∑ q ∈ Finset.range 16, ∑ r ∈ Finset.range 4096, f ((16 * p + q) * 4096 + r)
      = ∑ m ∈ Finset.range (2 * 16), ∑ r ∈ Finset.range 4096, f (m * 4096 + r) := by
    refine Eq.trans ?_ (sum_range_tiles 2 16 (fun m => ∑ r ∈ Finset.range 4096, f (m * 4096 + r)))
    refine Finset.sum_congr rfl fun p _ => Finset.sum_congr rfl fun q _ => ?_
    rw [mul_comm 16 p]
  have e2 : ∑ m ∈ Finset.range (2 * 16), ∑ r ∈ Finset.range 4096, f (m * 4096 + r)
      = ∑ s ∈ Finset.range ((2 * 16) * 4096), f s := sum_range_tiles (2 * 16) 4096 f
  have e3 : ∑ b : Fin 131072, f b.val = ∑ s ∈ Finset.range 131072, f s := Fin.sum_univ_eq_sum_range f 131072
  simp only [h3, h2]
  rw [h1, e1, e2, e3]

/-- A function on the rows, continued by zero to all natural numbers. -/
def rowsExt {α : Type*} [AddCommMonoid α] (f : Fin 131072 → α) (b : ℕ) : α :=
  if hb : b < 131072 then f ⟨b, hb⟩ else 0

theorem rowsExt_of_lt {α : Type*} [AddCommMonoid α] (f : Fin 131072 → α) (b : ℕ) (hb : b < 131072) :
    rowsExt f b = f ⟨b, hb⟩ := dif_pos hb

/-- The same count for a family given tile by tile: if the entry r of tile n is the row n · 4096 + r, the sum over
    the three counters is the sum over the rows. -/
theorem sum_tiles_rows {α : Type*} [AddCommMonoid α] (F : ℕ → Fin 4096 → α) (f : Fin 131072 → α)
    (h : ∀ (n : ℕ) (hn : n < 32) (r : Fin 4096), F n r = f ⟨n * 4096 + r.val, by omega⟩) :
    ∑ p : Fin 2, ∑ q : Fin 16, ∑ r : Fin 4096, F (16 * p.val + q.val) r = ∑ b : Fin 131072, f b := by
  have hR : ∀ b : Fin 131072, f b = rowsExt f b.val := fun b => (rowsExt_of_lt f b.val b.isLt).symm
  have hL : ∀ (p : Fin 2) (q : Fin 16) (r : Fin 4096),
      F (16 * p.val + q.val) r = rowsExt f ((16 * p.val + q.val) * 4096 + r.val) := by
    intro p q r
    have hn : 16 * p.val + q.val < 32 := by omega
    have hb : (16 * p.val + q.val) * 4096 + r.val < 131072 := by omega
    rw [h _ hn r, rowsExt_of_lt f _ hb]
  simp only [hL, hR]
  exact sum_rows_tiled (rowsExt f)

end Cert.FocalGram
-- ==== Proof.KerBlocks.lean ====
/-
  The tile terms read off the argument arrays, and their sums over the whole grid.

  The window of point `n` on the logits and on the targets is the block of rows `4096 n … 4096 n + 4095`, all 64
  columns; the label weights' window is the whole [1, 64] row, which is the weight vector recast. So the thirty-two
  tile terms of each accumulator add up, over both groups, to the sum over all 131072 rows.
-/
import proofs.«154980_j21131239097026_2_alg».proof.Proof.KerChain
import proofs.«154980_j21131239097026_2_alg».proof.Proof.TileSum
import Idealize.ShloMosaic.Lib.Pipeline.Value
import Idealize.ShloMosaic.Lib.ValueLayout
import Idealize.ShloMosaic.Lib.StableHlo.Run

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

variable (m : (ℓ : Loc nD τ sig) → Buf (Elt Ideal) ℓ) (c : Dev nD)

/-- The argument arrays on core `c`, entry by entry. -/
def argX (b : Fin 131072) (k : Fin 64) : EReal := m ((c.tc : Thread nD τ).loc main_arg0) (ix2 b k)
def argT (b : Fin 131072) (k : Fin 64) : EReal := m ((c.tc : Thread nD τ).loc main_arg1) (ix2 b k)
def argW (k : Fin 64) : EReal := m ((c.tc : Thread nD τ).loc main_arg2) (ix1 k)

/-- The printed index maps of the three inputs, decided over the grid: block `(t, 0)` of the two big arrays, block
    `(0, 0)` of the weight row. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)

theorem xb_apply (n : ℕ) (hn : n < 32) (r : Fin 4096) (k : Fin 64) :
    xb m c n (ix2 r k) = argX m c ⟨n * 4096 + r.val, by omega⟩ k := by
  have hN : n < cfg0.N := lt_of_lt_of_eq hn (show (32 : ℕ) = cfg0.N from N_0.symm)
  unfold xb argX
  rw [dif_pos hN]
  obtain ⟨e0', e1⟩ := idx_facts0 ⟨n, hN⟩
  have e0 : win0_0.index ⟨n, hN⟩ (0 : Fin 2) = n := e0'
  unfold iblk
  rw [View.read_apply]
  show V m c main_arg0 _ = _
  rw [V_main_arg0]
  refine congrArg _ (funext fun a => Fin.ext ?_)
  match a with
  | ⟨0, _⟩ => show win0_0.index ⟨n, hN⟩ (0 : Fin 2) * 4096 + 1 * r.val = n * 4096 + r.val; rw [e0]; omega
  | ⟨1, _⟩ => show win0_0.index ⟨n, hN⟩ (1 : Fin 2) * 64 + 1 * k.val = k.val; rw [e1]; omega

theorem tb_apply (n : ℕ) (hn : n < 32) (r : Fin 4096) (k : Fin 64) :
    tb m c n (ix2 r k) = argT m c ⟨n * 4096 + r.val, by omega⟩ k := by
  have hN : n < cfg0.N := lt_of_lt_of_eq hn (show (32 : ℕ) = cfg0.N from N_0.symm)
  unfold tb argT
  rw [dif_pos hN]
  obtain ⟨e0', e1⟩ := idx_facts1 ⟨n, hN⟩
  have e0 : win0_1.index ⟨n, hN⟩ (0 : Fin 2) = n := e0'
  unfold iblk
  rw [View.read_apply]
  show V m c main_arg1 _ = _
  rw [V_main_arg1]
  refine congrArg _ (funext fun a => Fin.ext ?_)
  match a with
  | ⟨0, _⟩ => show win0_1.index ⟨n, hN⟩ (0 : Fin 2) * 4096 + 1 * r.val = n * 4096 + r.val; rw [e0]; omega
  | ⟨1, _⟩ => show win0_1.index ⟨n, hN⟩ (1 : Fin 2) * 64 + 1 * k.val = k.val; rw [e1]; omega

/-- The weight row the region finds is the weight vector recast to [1, 64]. -/
theorem V_main_v0 : (V m c main_v0 : S1x64.Idx → EReal)
    = shapeCast S1x64 (m ((c.tc : Thread nD τ).loc main_arg2)) shapeCasts_S64_S1x64 := by
  show StableHlo.after hostOps0 (fun b => m (c, b)) (Proc.devRef .tc main_v0) = _
  after_results
  rfl

theorem wb_apply (n : ℕ) (hn : n < 32) (k : Fin 64) :
    wb m c n (ix2 (0 : Fin 1) k) = argW m c k := by
  have hN : n < cfg0.N := lt_of_lt_of_eq hn (show (32 : ℕ) = cfg0.N from N_0.symm)
  unfold wb argW
  rw [dif_pos hN]
  obtain ⟨e0, e1⟩ := idx_facts2 ⟨n, hN⟩
  unfold iblk
  rw [View.read_apply]
  show V m c main_v0 _ = _
  rw [V_main_v0]
  refine (congrArg _ (funext fun a => Fin.ext ?_)).trans (shapeCast_a_1a_apply _ _ (0 : Fin 1) k)
  match a with
  | ⟨0, _⟩ => show win0_2.index ⟨n, hN⟩ (0 : Fin 2) * 1 + 1 * 0 = 0; rw [e0]
  | ⟨1, _⟩ => show win0_2.index ⟨n, hN⟩ (1 : Fin 2) * 64 + 1 * k.val = k.val; rw [e1]; omega

/-! ## The thirty-two tile terms add up to the sums over all rows -/

theorem sumT (i j : Fin 64) :
    ∑ p : Fin 2, ∑ q : Fin 16, gT m c (16 * p.val + q.val) i j = ∑ b : Fin 131072, argT m c b i * argT m c b j := by
  unfold gT
  exact sum_tiles_rows (fun n r => tb m c n (ix2 r i) * tb m c n (ix2 r j)) (fun b => argT m c b i * argT m c b j)
    fun n hn r => by rw [tb_apply m c n hn, tb_apply m c n hn]

theorem sumG (i j : Fin 64) :
    ∑ p : Fin 2, ∑ q : Fin 16, gG m c (16 * p.val + q.val) i j
      = ∑ b : Fin 131072, (argT m c b i * predS (argX m c b i)) * argT m c b j := by
  unfold gG
  exact sum_tiles_rows (fun n r => (tb m c n (ix2 r i) * predS (xb m c n (ix2 r i))) * tb m c n (ix2 r j))
    (fun b => (argT m c b i * predS (argX m c b i)) * argT m c b j)
    fun n hn r => by rw [tb_apply m c n hn, tb_apply m c n hn, xb_apply m c n hn]

theorem sumH (i j : Fin 64) :
    ∑ p : Fin 2, ∑ q : Fin 16, gH m c (16 * p.val + q.val) i j
      = ∑ b : Fin 131072, (argT m c b i * predS (argX m c b i)) * (argT m c b j * predS (argX m c b j)) := by
  unfold gH
  exact sum_tiles_rows
    (fun n r => (tb m c n (ix2 r i) * predS (xb m c n (ix2 r i))) * (tb m c n (ix2 r j) * predS (xb m c n (ix2 r j))))
    (fun b => (argT m c b i * predS (argX m c b i)) * (argT m c b j * predS (argX m c b j)))
    fun n hn r => by rw [tb_apply m c n hn, tb_apply m c n hn, xb_apply m c n hn, xb_apply m c n hn]

theorem sumF :
    ∑ p : Fin 2, ∑ q : Fin 16, gF m c (16 * p.val + q.val)
      = ∑ b : Fin 131072, ∑ k : Fin 64, focalS (argX m c b k) (argT m c b k) (argW m c k) := by
  unfold gF
  exact sum_tiles_rows
    (fun n r => ∑ k : Fin 64, focalS (xb m c n (ix2 r k)) (tb m c n (ix2 r k)) (wb m c n (ix2 (0 : Fin 1) k)))
    (fun b => ∑ k : Fin 64, focalS (argX m c b k) (argT m c b k) (argW m c k))
    fun n hn r => Finset.sum_congr rfl fun k _ => by rw [tb_apply m c n hn, xb_apply m c n hn, wb_apply m c n hn]

end Cert.KernelIdeal.KerValue

end
-- ==== Proof.Adj.lean ====
/-
  The label-pair weights both programs build from the label correlation, read at an index.

  The correlation of labels i and j is the sum over the rows of t(b,i) t(b,j), divided by the row count 131072. A pair
  keeps its correlation when it exceeds the threshold word 0x3E99999A (about 0.3) and the two labels differ; every other
  pair gets zero; the kept value is halved. The test is a one-bit word: the comparison's bit AND the complement of the bit
  of "row index plus zero equals column index" on 32-bit words. It is stated here once over literal shapes, so that the
  same chain of operations reads the same way wherever it occurs.
-/
import Idealize.ShloMosaic.PureOps.Ideal
import Idealize.ShloMosaic.PureOps.Ideal.Laws
import Idealize.ShloMosaic.Lib.ValueIdx
import Idealize.ShloMosaic.Lib.IdealHost
import proofs.«154980_j21131239097026_2_alg».proof.Proof.Spec

noncomputable section

open scoped BigOperators

namespace Cert.FocalGram

open Idealize.ShloMosaic Idealize.ShloMosaic.ValueIdx

/-- The correlation of labels i and j: the rows' sum of products over the row count. -/
def corrAt (t : Fin 131072 → Fin 64 → EReal) (i j : Fin 64) : EReal :=
  Ideal.div (∑ b, t b i * t b j) (Ideal.ofBits .f32 0x48000000#32)

/-- The bit that keeps a pair: its value exceeds the threshold, and the row index (plus the zero word) is not the
    column index. -/
def keepBit (cv : EReal) (i j : Fin 64) : BitVec 1 :=
  IntOp.andi (Ideal.cmp .ogt cv (Ideal.ofBits .f32 0x3E99999A#32))
    (~~~(IntOp.cmpi .eq (IntOp.addi (BitVec.ofNat 32 i.val) 0#32) (BitVec.ofNat 32 j.val)))

/-- The weight of the pair (i, j) whose correlation is cv: cv where the pair is kept, zero elsewhere, halved. -/
def adjAt (cv : EReal) (i j : Fin 64) : EReal := (if keepBit cv i j = 1#1 then cv else 0) * half

/-- The word 0x3F000000 is one half. -/
theorem half_eq : half = (((1 : ℝ) / 2 : ℝ) : EReal) := by
  simp [Ideal.ofBits, Ideal.ieee, -EReal.coe_mul]; norm_num

/-- The word 0x48000000 is the row count 131072. -/
theorem ofBits_rows : Ideal.ofBits .f32 0x48000000#32 = ((131072 : ℝ) : EReal) := by
  simp [Ideal.ofBits, Ideal.ieee, -EReal.coe_mul]; norm_num

/-- A weight built from a real correlation is a real number: the kept value or zero, times one half. -/
theorem adjAt_real (cv : EReal) (h : ∃ r : ℝ, cv = (r : EReal)) (i j : Fin 64) :
    ∃ r : ℝ, adjAt cv i j = (r : EReal) := by
  obtain ⟨r, rfl⟩ := h
  unfold adjAt
  rw [half_eq]
  by_cases hk : keepBit (r : EReal) i j = 1#1
  · rw [if_pos hk]; exact ⟨r * (1 / 2), (EReal.coe_mul _ _).symm⟩
  · rw [if_neg hk]; exact ⟨0, by rw [zero_mul]; rfl⟩

/-- A finite sum of real numbers is a real number. -/
private theorem real_sum {ι : Type} (S : Finset ι) (f : ι → EReal) (h : ∀ i ∈ S, ∃ r : ℝ, f i = (r : EReal)) :
    ∃ r : ℝ, ∑ i ∈ S, f i = (r : EReal) := by
  classical
  revert h
  refine Finset.induction_on S (fun _ => ⟨0, by simp⟩) ?_
  intro a S ha ih h
  obtain ⟨x, hx⟩ := h a (Finset.mem_insert_self a S)
  obtain ⟨y, hy⟩ := ih fun i hi => h i (Finset.mem_insert_of_mem hi)
  exact ⟨x + y, by rw [Finset.sum_insert ha, hx, hy, EReal.coe_add]⟩

/-- The correlation of real targets is a real number: a finite sum of products of reals, times the reciprocal of the
    row count, which is not zero. -/
theorem corrAt_real (t : Fin 131072 → Fin 64 → EReal) (ht : ∀ b c, ∃ r : ℝ, t b c = (r : EReal)) (i j : Fin 64) :
    ∃ r : ℝ, corrAt t i j = (r : EReal) := by
  unfold corrAt
  rw [ofBits_rows, Ideal.div_coe (by norm_num : (131072 : ℝ) ≠ 0)]
  obtain ⟨s, hs⟩ := real_sum Finset.univ (fun b => t b i * t b j) fun b _ => by
    obtain ⟨x, hx⟩ := ht b i
    obtain ⟨y, hy⟩ := ht b j
    exact ⟨x * y, by rw [hx, hy, EReal.coe_mul]⟩
  exact ⟨s * (1 / 131072), by rw [hs, EReal.coe_mul]⟩

/-- The chain of operations that builds the weights from a 64 by 64 correlation array, read at (i, j): the comparison
    with the threshold AND NOT (row iota plus zero equals column iota), the selection between the array and the zero
    word, the product with the half word. -/
theorem adjChain_apply (hb : (⟨0, ![]⟩ : Shape).BroadcastsInDim ⟨2, ![64, 64]⟩ (![] : Fin 0 → Fin 2))
    (corrM : FVec Ideal ⟨2, ![64, 64]⟩ .f32) (i j : Fin 64) :
    mulf (select (andi (cmpf .ogt corrM (broadcastInDim ⟨2, ![64, 64]⟩ ![] hb (constant ⟨0, ![]⟩ .f32 0x3E99999A#32)))
          (noti (cmpi .eq (addi (iotaInDim ⟨2, ![64, 64]⟩ 32 0)
              (broadcastInDim ⟨2, ![64, 64]⟩ ![] hb (constantI ⟨0, ![]⟩ 32 0#32))) (iotaInDim ⟨2, ![64, 64]⟩ 32 1))))
        corrM (broadcastInDim ⟨2, ![64, 64]⟩ ![] hb (id (constant ⟨0, ![]⟩ .f32 0x00000000#32))))
      (broadcastInDim ⟨2, ![64, 64]⟩ ![] hb (constant ⟨0, ![]⟩ .f32 0x3F000000#32)) (ix2 i j)
      = adjAt (corrM (ix2 i j)) i j := by
  rw [mulf_apply, select_apply]
  simp only [andi, noti, cmpi, addi, cmpf_apply, broadcastInDim_scalar_apply hb, constant_apply, constantI, iotaInDim_apply, id]
  rw [Ideal.ofBits_zero_f32]
  rfl

end Cert.FocalGram

end
-- ==== Proof.KerTail.lean ====
/-
  The host operations after the region, at the ideal values.

  They sum each output array over its two core slices, divide the label Gram matrix by the row count, build the
  pair weights from it (threshold, off the diagonal, halved), contract the weights against
  `G + Gᵀ - 2 H`, add the focal total and divide by the entry count. Read at the result's one index this is the
  specification's `kerValue`-shaped expression over the four arrays' slice sums.
-/
import proofs.«154980_j21131239097026_2_alg».proof.Proof.Gen.KernelIdeal.Launch
import proofs.«154980_j21131239097026_2_alg».proof.Proof.Adj
import Idealize.ShloMosaic.Lib.IdealHost
import Idealize.ShloMosaic.Lib.ValueLayout
import Idealize.ShloMosaic.Lib.Pipeline.Value
import Idealize.ShloMosaic.PureOps.Ideal.Laws

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

/-- The result of the lines after the region as one function of the four output arrays. -/
def tailOut (C G H : FVec Ideal S2x64x64 .f32) (Fb : FVec Ideal S2x1x1 .f32) : FVec Ideal S_ .f32 :=
  Host.divf
    (addf
      (shapeCast S_ (Host.reduceAdd Fb (constant (F := Ideal) S_ .f32 0x00000000#32) reducesTo_S2x1x1_S1x1_d0 h_S_) shapeCasts_S1x1_S_)
      (Host.reduceAdd
        (mulf
          (mulf
            (select
              (andi
                (cmpf .ogt
                  (Host.divf (Host.reduceAdd C (constant (F := Ideal) S_ .f32 0x00000000#32) reducesTo_S2x64x64_S64x64_d0 h_S_)
                    (broadcastInDim S64x64 ![] bcast_S_S64x64 (constant (F := Ideal) S_ .f32 0x48000000#32)))
                  (broadcastInDim S64x64 ![] bcast_S_S64x64 (constant (F := Ideal) S_ .f32 0x3E99999A#32)))
                (noti (cmpi .eq (addi (iotaInDim S64x64 32 0) (broadcastInDim S64x64 ![] bcast_S_S64x64 (constantI S_ 32 0#32)))
                  (iotaInDim S64x64 32 1))))
              (Host.divf (Host.reduceAdd C (constant (F := Ideal) S_ .f32 0x00000000#32) reducesTo_S2x64x64_S64x64_d0 h_S_)
                (broadcastInDim S64x64 ![] bcast_S_S64x64 (constant (F := Ideal) S_ .f32 0x48000000#32)))
              (broadcastInDim S64x64 ![] bcast_S_S64x64 (id (constant (F := Ideal) S_ .f32 0x00000000#32))))
            (broadcastInDim S64x64 ![] bcast_S_S64x64 (constant (F := Ideal) S_ .f32 0x3F000000#32)))
          (subf
            (addf (Host.reduceAdd G (constant (F := Ideal) S_ .f32 0x00000000#32) reducesTo_S2x64x64_S64x64_d0 h_S_)
              (transpose S64x64 [1, 0] (Host.reduceAdd G (constant (F := Ideal) S_ .f32 0x00000000#32) reducesTo_S2x64x64_S64x64_d0 h_S_) transposes_S64x64_S64x64_1_0))
            (mulf (broadcastInDim S64x64 ![] bcast_S_S64x64 (constant (F := Ideal) S_ .f32 0x40000000#32))
              (Host.reduceAdd H (constant (F := Ideal) S_ .f32 0x00000000#32) reducesTo_S2x64x64_S64x64_d0 h_S_))))
        (constant (F := Ideal) S_ .f32 0x00000000#32) reducesTo_S64x64_S_d0_1 h_S_))
    (constant (F := Ideal) S_ .f32 0x4B000000#32)

/-- The sum over the two core slices of a [2, 64, 64] array, at (i, j). -/
theorem sliceSum_apply (X : FVec Ideal S2x64x64 .f32) (i j : Fin 64) :
    Host.reduceAdd X (constant (F := Ideal) S_ .f32 0x00000000#32) reducesTo_S2x64x64_S64x64_d0 h_S_ (ix2 i j)
      = ∑ p : Fin 2, X (ix3 p i j) := by
  rw [hostReduceAdd_apply]
  refine (Ideal.hostReduceAdd_single reducesTo_S2x64x64_S64x64_d0 (by decide) X _ (ix2 i j)).trans ?_
  rw [constant_apply, Ideal.ofBits_zero_f32, zero_add]
  exact Finset.sum_congr rfl fun p _ => congrArg X (funext fun d => Fin.ext (by
    match d with
    | ⟨0, _⟩ => rfl
    | ⟨1, _⟩ => rfl
    | ⟨2, _⟩ => rfl))

/-- The sum over the two core slices of the [2, 1, 1] array, at (0, 0). -/
theorem sliceSum1_apply (X : FVec Ideal S2x1x1 .f32) :
    Host.reduceAdd X (constant (F := Ideal) S_ .f32 0x00000000#32) reducesTo_S2x1x1_S1x1_d0 h_S_ (ix2 (0 : Fin 1) (0 : Fin 1))
      = ∑ p : Fin 2, X (ix3 p (0 : Fin 1) (0 : Fin 1)) := by
  rw [hostReduceAdd_apply]
  refine (Ideal.hostReduceAdd_single reducesTo_S2x1x1_S1x1_d0 (by decide) X _ (ix2 (0 : Fin 1) (0 : Fin 1))).trans ?_
  rw [constant_apply, Ideal.ofBits_zero_f32, zero_add]
  exact Finset.sum_congr rfl fun p _ => congrArg X (funext fun d => Fin.ext (by
    match d with
    | ⟨0, _⟩ => rfl
    | ⟨1, _⟩ => rfl
    | ⟨2, _⟩ => rfl))

/-- The tail's result, read: the mean of the focal total plus the weights contracted against `G + Gᵀ - 2 H`, all over
    the arrays' slice sums. -/
theorem tailOut_eq (C G H : FVec Ideal S2x64x64 .f32) (Fb : FVec Ideal S2x1x1 .f32) :
    tailOut C G H Fb = fun _ =>
      Ideal.div
        ((∑ p : Fin 2, Fb (ix3 p (0 : Fin 1) (0 : Fin 1)))
          + ∑ i : Fin 64, ∑ j : Fin 64,
              adjAt (Ideal.div (∑ p : Fin 2, C (ix3 p i j)) (Ideal.ofBits .f32 0x48000000#32)) i j
                * (((∑ p : Fin 2, G (ix3 p i j)) + ∑ p : Fin 2, G (ix3 p j i)) - two * ∑ p : Fin 2, H (ix3 p i j)))
        nAll := by
  funext idx
  unfold tailOut
  rw [hostDivf_apply, constant_apply, addf_apply]
  refine congrArg (fun s => Ideal.div s nAll) (congrArg₂ (· + ·) ?_ ?_)
  · refine (shapeCast_apply _ _ idx (ix2 (0 : Fin 1) (0 : Fin 1)) ?_).trans (sliceSum1_apply Fb)
    rw [Shape.rowMajor_val_two]
    have : (S_.rowMajor idx).val < 1 := (S_.rowMajor idx).isLt
    show 0 * 1 + 0 = _
    omega
  · rw [hostReduceAdd_apply]
    refine (Ideal.hostReduceAdd_total reducesTo_S64x64_S_d0_1 (fun b => b.elim0) _ _ idx).trans ?_
    rw [constant_apply, Ideal.ofBits_zero_f32, zero_add, sum_idx2]
    refine Finset.sum_congr rfl fun i _ => Finset.sum_congr rfl fun j _ => ?_
    rw [mulf_apply]
    refine congrArg₂ (· * ·) ?_ ?_
    · refine (adjChain_apply bcast_S_S64x64 _ i j).trans ?_
      rw [hostDivf_apply, sliceSum_apply, broadcastInDim_scalar_apply bcast_S_S64x64, constant_apply]
    · rw [subf_apply, addf_apply, mulf_apply, sliceSum_apply, sliceSum_apply,
        transpose_ix2_apply, sliceSum_apply, broadcastInDim_scalar_apply bcast_S_S64x64, constant_apply]

end Cert.KernelIdeal.KerValue

end
-- ==== Proof.KerRun.lean ====
/-
  The kernel's run, read: every weakly fair execution ends with the result at the specification's `kerValue` of the
  argument arrays — the focal total over all rows plus the pair weights contracted against the Gram matrices, averaged —
  and the arguments unchanged.
-/
import proofs.«154980_j21131239097026_2_alg».proof.Proof.KerFinal
import proofs.«154980_j21131239097026_2_alg».proof.Proof.KerBlocks
import proofs.«154980_j21131239097026_2_alg».proof.Proof.KerTail
import Idealize.ShloMosaic.Lib.StableHlo.Run

set_option pp.maxSteps 8000
set_option pp.deepTerms false

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Idealize.ShloMosaic.ValueIdx Cert.FocalGram

variable (m : (ℓ : Loc nD τ sig) → Buf (Elt Ideal) ℓ) (ρ : Dev nD → PrngReg)

/-- The pair weights from the targets' correlation. -/
def weights (c : Dev nD) (i j : Fin 64) : EReal := adjAt (corrAt (argT m c) i j) i j

/-- The slice sums of the four arrays are the sums over all rows. -/
theorem sliceT (c : Dev nD) (i j : Fin 64) :
    ∑ p : Fin 2, arrM (gT m c) (ix3 p i j) = ∑ b : Fin 131072, argT m c b i * argT m c b j :=
  (Finset.sum_congr rfl fun p _ => arrM_apply (gT m c) (ix3 p i j) p.val i j rfl rfl rfl).trans (sumT m c i j)
theorem sliceG (c : Dev nD) (i j : Fin 64) :
    ∑ p : Fin 2, arrM (gG m c) (ix3 p i j) = ∑ b : Fin 131072, (argT m c b i * predS (argX m c b i)) * argT m c b j :=
  (Finset.sum_congr rfl fun p _ => arrM_apply (gG m c) (ix3 p i j) p.val i j rfl rfl rfl).trans (sumG m c i j)
theorem sliceH (c : Dev nD) (i j : Fin 64) :
    ∑ p : Fin 2, arrM (gH m c) (ix3 p i j)
      = ∑ b : Fin 131072, (argT m c b i * predS (argX m c b i)) * (argT m c b j * predS (argX m c b j)) :=
  (Finset.sum_congr rfl fun p _ => arrM_apply (gH m c) (ix3 p i j) p.val i j rfl rfl rfl).trans (sumH m c i j)
theorem sliceF (c : Dev nD) :
    ∑ p : Fin 2, arrS (gF m c) (ix3 p (0 : Fin 1) (0 : Fin 1))
      = ∑ b : Fin 131072, ∑ k : Fin 64, focalS (argX m c b k) (argT m c b k) (argW m c k) :=
  (Finset.sum_congr rfl fun p _ => arrS_apply (gF m c) (ix3 p (0 : Fin 1) (0 : Fin 1)) p.val rfl).trans (sumF m c)

set_option maxRecDepth 16384 in
set_option maxHeartbeats 4000000 in
/-- The lines after the region, folded over any buffer contents: their result is `tailOut` of the four output arrays'
    contents. -/
theorem tail_fold (W : Valuation τ sig (Elt Ideal)) :
    StableHlo.after (List.flatten [hostOps1, hostOps1_1, hostOps1_2]) W (Proc.devRef .tc main_v29)
      = tailOut (W (Proc.devRef .tc main_v1_0)) (W (Proc.devRef .tc main_v1_1)) (W (Proc.devRef .tc main_v1_2))
          (W (Proc.devRef .tc main_v1_3)) := by
  simp only [hostOps1, hostOps1_1, hostOps1_2, List.flatten_cons, List.flatten_nil, List.append_nil, List.cons_append,
    List.nil_append]
  after_results_simp
  rfl

/-- The lines after the region, applied to the arrays the region leaves. -/
theorem tail_term (c : Dev nD) :
    Pipeline.afterTail₀ cfgs (dats m) 0 (V0 m) [hostOps1, hostOps1_1, hostOps1_2] c main_v29
      = tailOut ((dats m 0 c).arrAt 3 cfg0.N) ((dats m 0 c).arrAt 4 cfg0.N) ((dats m 0 c).arrAt 5 cfg0.N)
          ((dats m 0 c).arrAt 6 cfg0.N) := by
  unfold Pipeline.afterTail₀
  refine (tail_fold _).trans ?_
  refine congr (congr (congr (congrArg tailOut ?_) ?_) ?_) ?_
  · exact Pipeline.withArrays_arr spec0 launch0.win.arr_inj c _ _ 3
  · exact Pipeline.withArrays_arr spec0 launch0.win.arr_inj c _ _ 4
  · exact Pipeline.withArrays_arr spec0 launch0.win.arr_inj c _ _ 5
  · exact Pipeline.withArrays_arr spec0 launch0.win.arr_inj c _ _ 6

/-- The result the tail leaves is the specification's `kerValue`. -/
theorem tail_value (c : Dev nD) :
    Pipeline.afterTail₀ cfgs (dats m) 0 (V0 m) [hostOps1, hostOps1_1, hostOps1_2] c main_v29
      = fun _ => kerValue (argX m c) (argT m c) (argW m c) (weights m c) := by
  rw [tail_term, final3, final4, final5, final6, tailOut_eq]
  funext _
  unfold kerValue
  refine congrArg (fun s => Ideal.div s nAll) (congrArg₂ (· + ·) (sliceF m c) ?_)
  refine Finset.sum_congr rfl fun i _ => Finset.sum_congr rfl fun j _ => ?_
  rw [sliceT, sliceG, sliceG, sliceH]
  rfl

/-- The run of the idealized kernel, read. -/
theorem run : θ_run defs (onTc (τ := τ) (main (F := Ideal))) ⟨m, fun _ => 0, ρ⟩ fun r => ∀ c : Dev nD,
      r.2.mem ((c.tc : Thread nD τ).loc main_v29) = (fun _ => kerValue (argX m c) (argT m c) (argW m c) (weights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.RefRun.lean ====
/-
  The reference's @main as the list of its 112 host operations — the three outlined functions (the two
  log-sigmoids, each calling the softplus, and the where) written out at their call sites over the calls' buffer
  records — and its run read back: every weakly fair execution terminates with the result buffer at the operations'
  composed pure term of the three arguments' launch contents, the arguments unchanged.
-/
import proofs.«154980_j21131239097026_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's 112 operations, in order, the calls unfolded: a log-sigmoid is sixteen (the negation, the softplus's
    fourteen, the negation), the where three. -/
abbrev ops : List (HloOp τ sig (Elt F)) :=
  [ unary main_arg1 main_v0 ((transpose S64x131072 [1, 0] · transposes_S131072x64_S64x131072_1_0) : (⟨S131072x64, .f32⟩ : BufTy).Contents (Elt F) → (⟨S64x131072, .f32⟩ : BufTy).Contents (Elt F)),
    binary main_v0 main_arg1 main_v1 ((fun l r => Host.dotGeneral dot_S64x131072_S131072x64_S64x64_1_0_0_1_n_n none l r) : (⟨S64x131072, .f32⟩ : BufTy).Contents (Elt F) → (⟨S131072x64, .f32⟩ : BufTy).Contents (Elt F) → (⟨S64x64, .f32⟩ : BufTy).Contents (Elt F)),
    nullary main_cst (constant S_ .f32 0x48000000#32),
    unary main_cst main_v2 (broadcastInDim S64x64 ![] bcast_S_S64x64 : (⟨S_, .f32⟩ : BufTy).Contents (Elt F) → (⟨S64x64, .f32⟩ : BufTy).Contents (Elt F)),
    binary main_v1 main_v2 main_v3 (Host.divf : (⟨S64x64, .f32⟩ : BufTy).Contents (Elt F) → (⟨S64x64, .f32⟩ : BufTy).Contents (Elt F) → (⟨S64x64, .f32⟩ : BufTy).Contents (Elt F)),
    unary main_arg0 main_v4 (Host.negf : (⟨S131072x64, .f32⟩ : BufTy).Contents (Elt F) → (⟨S131072x64, .f32⟩ : BufTy).Contents (Elt F)),
    unary main_v4 main_v5 (Host.exp : (⟨S131072x64, .f32⟩ : BufTy).Contents (Elt F) → (⟨S131072x64, .f32⟩ : BufTy).Contents (Elt F)),
    nullary main_cst_0 (constant S_ .f32 0x3F800000#32),
    unary main_cst_0 main_v6 (broadcastInDim S131072x64 ![] bcast_S_S131072x64 : (⟨S_, .f32⟩ : BufTy).Contents (Elt F) → (⟨S131072x64, .f32⟩ : BufTy).Contents (Elt F)),
    binary main_v6 main_v5 main_v7 (addf : (⟨S131072x64, .f32⟩ : BufTy).Contents (Elt F) → (⟨S131072x64, .f32⟩ : BufTy).Contents (Elt F) → (⟨S131072x64, .f32⟩ : BufTy).Contents (Elt F)),
    nullary main_cst_1 (constant S_ .f32 0x3F800000#32),
    unary main_cst_1 main_v8 (broadcastInDim S131072x64 ![] bcast_S_S131072x64 : (⟨S_, .f32⟩ : BufTy).Contents (Elt F) → (⟨S131072x64, .f32⟩ : BufTy).Contents (Elt F)),
    binary main_v8 main_v7 main_v9 (Host.divf : (⟨S131072x64, .f32⟩ : BufTy).Contents (Elt F) → (⟨S131072x64, .f32⟩ : BufTy).Contents (Elt F) → (⟨S131072x64, .f32⟩ : BufTy).Contents (Elt F)),
    binary main_v9 main_arg1 main_v10 (mulf : (⟨S131072x64, .f32⟩ : BufTy).Contents (Elt F) → (⟨S131072x64, .f32⟩ : BufTy).Contents (Elt F) → (⟨S131072x64, .f32⟩ : BufTy).Contents (Elt F)),
    nullary main_cst_2 (constant S_ .f32 0x3F800000#32),
    unary main_cst_2 main_v11 (broadcastInDim S131072x64 ![] bcast_S_S131072x64 : (⟨S_, .f32⟩ : BufTy).Contents (Elt F) → (⟨S131072x64, .f32⟩ : BufTy).Contents (Elt F)),
    binary main_v11 main_v9 main_v12 (subf : (⟨S131072x64, .f32⟩ : BufTy).Contents (Elt F) → (⟨S131072x64, .f32⟩ : BufTy).Contents (Elt F) → (⟨S131072x64, .f32⟩ : BufTy).Contents (Elt F)),
    nullary main_cst_3 (constant S_ .f32 0x3F800000#32),
    unary main_cst_3 main_v13 (broadcastInDim S131072x64 ![] bcast_S_S131072x64 : (⟨S_, .f32⟩ : BufTy).Contents (Elt F) → (⟨S131072x64, .f32⟩ : BufTy).Contents (Elt F)),
    binary main_v13 main_arg1 main_v14 (subf : (⟨S131072x64, .f32⟩ : BufTy).Contents (Elt F) → (⟨S131072x64, .f32⟩ : BufTy).Contents (Elt F) → (⟨S131072x64, .f32⟩ : BufTy).Contents (Elt F)),
    binary main_v12 main_v14 main_v15 (mulf : (⟨S131072x64, .f32⟩ : BufTy).Contents (Elt F) → (⟨S131072x64, .f32⟩ : BufTy).Contents (Elt F) → (⟨S131072x64, .f32⟩ : BufTy).Contents (Elt F)),
    binary main_v10 main_v15 main_v16 (addf : (⟨S131072x64, .f32⟩ : BufTy).Contents (Elt F) → (⟨S131072x64, .f32⟩ : BufTy).Contents (Elt F) → (⟨S131072x64, .f32⟩ : BufTy).Contents (Elt F)),
    nullary main_cst_4 (constant S_ .f32 0x3F800000#32),
    unary main_cst_4 main_v17 (broadcastInDim S131072x64 ![] bcast_S_S131072x64 : (⟨S_, .f32⟩ : BufTy).Contents (Elt F) → (⟨S131072x64, .f32⟩ : BufTy).Contents (Elt F)),
    binary main_v17 main_v16 main_v18 (subf : (⟨S131072x64, .f32⟩ : BufTy).Contents (Elt F) → (⟨S131072x64, .f32⟩ : BufTy).Contents (Elt F) → (⟨S131072x64, .f32⟩ : BufTy).Contents (Elt F)),
    nullary main_cst_5 (constant S_ .f32 0x40000000#32),
    unary main_cst_5 main_v19 (broadcastInDim S131072x64 ![] bcast_S_S131072x64 : (⟨S_, .f32⟩ : BufTy).Contents (Elt F) → (⟨S131072x64, .f32⟩ : BufTy).Contents (Elt F)),
    binary main_v18 main_v19 main_v20 (Host.powf : (⟨S131072x64, .f32⟩ : BufTy).Contents (Elt F) → (⟨S131072x64, .f32⟩ : BufTy).Contents (Elt F) → (⟨S131072x64, .f32⟩ : BufTy).Contents (Elt F)),
    unary main_arg2 main_v21 (broadcastInDim S1x64 ![1] bcast_S64_S1x64_1 : (⟨S64, .f32⟩ : BufTy).Contents (Elt F) → (⟨S1x64, .f32⟩ : BufTy).Contents (Elt F)),
    unary main_v21 main_v22 (broadcastInDim S131072x64 ![0, 1] bcast_S1x64_S131072x64_0_1 : (⟨S1x64, .f32⟩ : BufTy).Contents (Elt F) → (⟨S131072x64, .f32⟩ : BufTy).Contents (Elt F)),
    binary main_v22 main_arg1 main_v23 (mulf : (⟨S131072x64, .f32⟩ : BufTy).Contents (Elt F) → (⟨S131072x64, .f32⟩ : BufTy).Contents (Elt F) → (⟨S131072x64, .f32⟩ : BufTy).Contents (Elt F)),
    TRef.unary (.of main_arg0 : TRef sig ⟨S131072x64, .f32⟩) main_call0.v0 Host.negf,
    TRef.nullary main_call0.call0.cst (constant S_ .f32 0x00000000#32),
    TRef.unary main_call0.call0.cst main_call0.call0.v0 (broadcastInDim S131072x64 ![] bcast_S_S131072x64),
    TRef.binary main_call0.v0 main_call0.call0.v0 main_call0.call0.v1 maximumf,
    TRef.unary main_call0.call0.cst main_call0.call0.v2 (broadcastInDim S131072x64 ![] bcast_S_S131072x64),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S131072x64 ![] bcast_S_S131072x64),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v23 main_v24 main_v25 (mulf : (⟨S131072x64, .f32⟩ : BufTy).Contents (Elt F) → (⟨S131072x64, .f32⟩ : BufTy).Contents (Elt F) → (⟨S131072x64, .f32⟩ : BufTy).Contents (Elt F)),
    nullary main_cst_6 (constant S_ .f32 0x3F800000#32),
    unary main_cst_6 main_v26 (broadcastInDim S131072x64 ![] bcast_S_S131072x64 : (⟨S_, .f32⟩ : BufTy).Contents (Elt F) → (⟨S131072x64, .f32⟩ : BufTy).Contents (Elt F)),
    binary main_v26 main_arg1 main_v27 (subf : (⟨S131072x64, .f32⟩ : BufTy).Contents (Elt F) → (⟨S131072x64, .f32⟩ : BufTy).Contents (Elt F) → (⟨S131072x64, .f32⟩ : BufTy).Contents (Elt F)),
    unary main_arg0 main_v28 (Host.negf : (⟨S131072x64, .f32⟩ : BufTy).Contents (Elt F) → (⟨S131072x64, .f32⟩ : BufTy).Contents (Elt F)),
    TRef.unary (.of main_v28 : TRef sig ⟨S131072x64, .f32⟩) main_call1.v0 Host.negf,
    TRef.nullary main_call1.call0.cst (constant S_ .f32 0x00000000#32),
    TRef.unary main_call1.call0.cst main_call1.call0.v0 (broadcastInDim S131072x64 ![] bcast_S_S131072x64),
    TRef.binary main_call1.v0 main_call1.call0.v0 main_call1.call0.v1 maximumf,
    TRef.unary main_call1.call0.cst main_call1.call0.v2 (broadcastInDim S131072x64 ![] bcast_S_S131072x64),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S131072x64 ![] bcast_S_S131072x64),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v27 main_v29 main_v30 (mulf : (⟨S131072x64, .f32⟩ : BufTy).Contents (Elt F) → (⟨S131072x64, .f32⟩ : BufTy).Contents (Elt F) → (⟨S131072x64, .f32⟩ : BufTy).Contents (Elt F)),
    binary main_v25 main_v30 main_v31 (addf : (⟨S131072x64, .f32⟩ : BufTy).Contents (Elt F) → (⟨S131072x64, .f32⟩ : BufTy).Contents (Elt F) → (⟨S131072x64, .f32⟩ : BufTy).Contents (Elt F)),
    unary main_v31 main_v32 (Host.negf : (⟨S131072x64, .f32⟩ : BufTy).Contents (Elt F) → (⟨S131072x64, .f32⟩ : BufTy).Contents (Elt F)),
    binary main_v20 main_v32 main_v33 (mulf : (⟨S131072x64, .f32⟩ : BufTy).Contents (Elt F) → (⟨S131072x64, .f32⟩ : BufTy).Contents (Elt F) → (⟨S131072x64, .f32⟩ : BufTy).Contents (Elt F)),
    nullary main_cst_7 (constant S_ .f32 0x3F000000#32),
    unary main_cst_7 main_v34 (broadcastInDim S131072x64 ![] bcast_S_S131072x64 : (⟨S_, .f32⟩ : BufTy).Contents (Elt F) → (⟨S131072x64, .f32⟩ : BufTy).Contents (Elt F)),
    binary main_v9 main_v34 main_v35 (cmpf .oge : (⟨S131072x64, .f32⟩ : BufTy).Contents (Elt F) → (⟨S131072x64, .f32⟩ : BufTy).Contents (Elt F) → (⟨S131072x64, .i1⟩ : BufTy).Contents (Elt F)),
    unary main_v35 main_v36 (uitofp .f32 : (⟨S131072x64, .i1⟩ : BufTy).Contents (Elt F) → (⟨S131072x64, .f32⟩ : BufTy).Contents (Elt F)),
    nullary main_v37 (iotaInDim S64x64 32 0),
    nullary main_v38 (iotaInDim S64x64 32 1),
    nullary main_c (constantI S_ 32 0#32),
    unary main_c main_v39 (broadcastInDim S64x64 ![] bcast_S_S64x64 : (⟨S_, .i32⟩ : BufTy).Contents (Elt F) → (⟨S64x64, .i32⟩ : BufTy).Contents (Elt F)),
    binary main_v37 main_v39 main_v40 (addi : (⟨S64x64, .i32⟩ : BufTy).Contents (Elt F) → (⟨S64x64, .i32⟩ : BufTy).Contents (Elt F) → (⟨S64x64, .i32⟩ : BufTy).Contents (Elt F)),
    binary main_v40 main_v38 main_v41 (cmpi .eq : (⟨S64x64, .i32⟩ : BufTy).Contents (Elt F) → (⟨S64x64, .i32⟩ : BufTy).Contents (Elt F) → (⟨S64x64, .i1⟩ : BufTy).Contents (Elt F)),
    unary main_v41 main_v42 (noti : (⟨S64x64, .i1⟩ : BufTy).Contents (Elt F) → (⟨S64x64, .i1⟩ : BufTy).Contents (Elt F)),
    nullary main_cst_8 (constant S_ .f32 0x3E99999A#32),
    unary main_cst_8 main_v43 (broadcastInDim S64x64 ![] bcast_S_S64x64 : (⟨S_, .f32⟩ : BufTy).Contents (Elt F) → (⟨S64x64, .f32⟩ : BufTy).Contents (Elt F)),
    binary main_v3 main_v43 main_v44 (cmpf .ogt : (⟨S64x64, .f32⟩ : BufTy).Contents (Elt F) → (⟨S64x64, .f32⟩ : BufTy).Contents (Elt F) → (⟨S64x64, .i1⟩ : BufTy).Contents (Elt F)),
    binary main_v44 main_v42 main_v45 (andi : (⟨S64x64, .i1⟩ : BufTy).Contents (Elt F) → (⟨S64x64, .i1⟩ : BufTy).Contents (Elt F) → (⟨S64x64, .i1⟩ : BufTy).Contents (Elt F)),
    nullary main_cst_9 (constant S_ .f32 0x00000000#32),
    TRef.unary (.of main_cst_9 : TRef sig ⟨S_, .f32⟩) main_call2.v0 id,
    TRef.unary main_call2.v0 main_call2.v1 (broadcastInDim S64x64 ![] bcast_S_S64x64),
    TRef.ternary (.of main_v45 : TRef sig ⟨S64x64, .i1⟩) (.of main_v3 : TRef sig ⟨S64x64, .f32⟩) main_call2.v1 main_call2.v2 select,
    nullary main_cst_10 (constant S_ .f32 0x3F000000#32),
    unary main_cst_10 main_v47 (broadcastInDim S64x64 ![] bcast_S_S64x64 : (⟨S_, .f32⟩ : BufTy).Contents (Elt F) → (⟨S64x64, .f32⟩ : BufTy).Contents (Elt F)),
    binary main_v46 main_v47 main_v48 (mulf : (⟨S64x64, .f32⟩ : BufTy).Contents (Elt F) → (⟨S64x64, .f32⟩ : BufTy).Contents (Elt F) → (⟨S64x64, .f32⟩ : BufTy).Contents (Elt F)),
    unary main_v48 main_v49 ((transpose S64x64 [1, 0] · transposes_S64x64_S64x64_1_0) : (⟨S64x64, .f32⟩ : BufTy).Contents (Elt F) → (⟨S64x64, .f32⟩ : BufTy).Contents (Elt F)),
    binary main_arg1 main_v49 main_v50 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_arg1 main_v36 main_v51 (mulf : (⟨S131072x64, .f32⟩ : BufTy).Contents (Elt F) → (⟨S131072x64, .f32⟩ : BufTy).Contents (Elt F) → (⟨S131072x64, .f32⟩ : BufTy).Contents (Elt F)),
    unary main_v48 main_v52 ((transpose S64x64 [1, 0] · transposes_S64x64_S64x64_1_0) : (⟨S64x64, .f32⟩ : BufTy).Contents (Elt F) → (⟨S64x64, .f32⟩ : BufTy).Contents (Elt F)),
    binary main_v51 main_v52 main_v53 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v36 main_v50 main_v54 (mulf : (⟨S131072x64, .f32⟩ : BufTy).Contents (Elt F) → (⟨S131072x64, .f32⟩ : BufTy).Contents (Elt F) → (⟨S131072x64, .f32⟩ : BufTy).Contents (Elt F)),
    binary main_v54 main_v53 main_v55 (addf : (⟨S131072x64, .f32⟩ : BufTy).Contents (Elt F) → (⟨S131072x64, .f32⟩ : BufTy).Contents (Elt F) → (⟨S131072x64, .f32⟩ : BufTy).Contents (Elt F)),
    nullary main_cst_11 (constant S_ .f32 0x40000000#32),
    unary main_cst_11 main_v56 (broadcastInDim S131072x64 ![] bcast_S_S131072x64 : (⟨S_, .f32⟩ : BufTy).Contents (Elt F) → (⟨S131072x64, .f32⟩ : BufTy).Contents (Elt F)),
    binary main_v56 main_v36 main_v57 (mulf : (⟨S131072x64, .f32⟩ : BufTy).Contents (Elt F) → (⟨S131072x64, .f32⟩ : BufTy).Contents (Elt F) → (⟨S131072x64, .f32⟩ : BufTy).Contents (Elt F)),
    binary main_v57 main_v53 main_v58 (mulf : (⟨S131072x64, .f32⟩ : BufTy).Contents (Elt F) → (⟨S131072x64, .f32⟩ : BufTy).Contents (Elt F) → (⟨S131072x64, .f32⟩ : BufTy).Contents (Elt F)),
    binary main_v55 main_v58 main_v59 (subf : (⟨S131072x64, .f32⟩ : BufTy).Contents (Elt F) → (⟨S131072x64, .f32⟩ : BufTy).Contents (Elt F) → (⟨S131072x64, .f32⟩ : BufTy).Contents (Elt F)),
    binary main_arg1 main_v59 main_v60 (mulf : (⟨S131072x64, .f32⟩ : BufTy).Contents (Elt F) → (⟨S131072x64, .f32⟩ : BufTy).Contents (Elt F) → (⟨S131072x64, .f32⟩ : BufTy).Contents (Elt F)),
    binary main_v33 main_v60 main_v61 (addf : (⟨S131072x64, .f32⟩ : BufTy).Contents (Elt F) → (⟨S131072x64, .f32⟩ : BufTy).Contents (Elt F) → (⟨S131072x64, .f32⟩ : BufTy).Contents (Elt F)),
    nullary main_cst_12 (constant S_ .f32 0x00000000#32),
    binary main_v61 main_cst_12 main_v62 ((fun x v => Host.reduceAdd x v reducesTo_S131072x64_S_d0_1 h_S_) : (⟨S131072x64, .f32⟩ : BufTy).Contents (Elt F) → (⟨S_, .f32⟩ : BufTy).Contents (Elt F) → (⟨S_, .f32⟩ : BufTy).Contents (Elt F)),
    nullary main_cst_13 (constant S_ .f32 0x4B000000#32),
    binary main_v62 main_cst_13 main_v63 (Host.divf : (⟨S_, .f32⟩ : BufTy).Contents (Elt F) → (⟨S_, .f32⟩ : BufTy).Contents (Elt F) → (⟨S_, .f32⟩ : BufTy).Contents (Elt F)) ]

-- one hundred and twelve binds re-associated: the rewrite under the chain recurses once per statement
set_option maxRecDepth 4096 in
set_option maxHeartbeats 4000000 in
/-- @main is that straight line: the two windows and the functions' definitions unfolded at their calls, both sides
    are one chain of steps once sequencing is reassociated. -/
theorem main_eq (c : Dev nD) : main (F := F) c = seq ops := by
  simp only [main, main_part0, main_part1, fn_log_sigmoid.body, fn_log_sigmoid_0.body, fn_softplus.body, fn_where.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., binary_bufs_sub .., nullary_bufs_sub .., binary_bufs_sub ..⟩

/-! ## The composed term, one layer at a time -/

section Terms

variable (X T Y : (⟨S131072x64, .f32⟩ : BufTy).Contents (Elt F)) (PW : (⟨S64, .f32⟩ : BufTy).Contents (Elt F))

/-- One float word at every entry of the 131072 by 64 array. -/
def fill (w : BitVec 32) : (⟨S131072x64, .f32⟩ : BufTy).Contents (Elt F) :=
  broadcastInDim S131072x64 ![] bcast_S_S131072x64 (constant S_ .f32 w)
/-- One float word at every entry of the 64 by 64 array. -/
def fillSq (w : BitVec 32) : (⟨S64x64, .f32⟩ : BufTy).Contents (Elt F) :=
  broadcastInDim S64x64 ![] bcast_S_S64x64 (constant S_ .f32 w)

/-- The probability `1 / (1 + e^{-x})`. -/
def probV : (⟨S131072x64, .f32⟩ : BufTy).Contents (Elt F) :=
  Host.divf (fill 0x3F800000#32) (addf (fill 0x3F800000#32) (Host.exp (Host.negf X)))
/-- The agreement `p t + (1 - p)(1 - t)`. -/
def agreeV : (⟨S131072x64, .f32⟩ : BufTy).Contents (Elt F) :=
  addf (mulf (probV X) T) (mulf (subf (fill 0x3F800000#32) (probV X)) (subf (fill 0x3F800000#32) T))
/-- The focal weight `(1 - agreement)^2`. -/
def focalWV : (⟨S131072x64, .f32⟩ : BufTy).Contents (Elt F) :=
  Host.powf (subf (fill 0x3F800000#32) (agreeV X T)) (fill 0x40000000#32)
/-- The softplus as the outlined function writes it: the not-a-number test selecting `y + 0`, otherwise
    `max(y, 0) + log(1 + e^{-|y - 0|})`. -/
def softplusV : (⟨S131072x64, .f32⟩ : BufTy).Contents (Elt F) :=
  select (cmpf .une (subf Y (fill 0x00000000#32)) (subf Y (fill 0x00000000#32))) (addf Y (fill 0x00000000#32))
    (addf (maximumf Y (fill 0x00000000#32))
      (Host.log1p (Host.exp (Host.negf (Host.absf (subf Y (fill 0x00000000#32)))))))
/-- `log σ(y) = -softplus(-y)`. -/
def logSigV : (⟨S131072x64, .f32⟩ : BufTy).Contents (Elt F) := Host.negf (softplusV (Host.negf Y))
/-- The label weights, one row repeated down the array. -/
def pwV : (⟨S131072x64, .f32⟩ : BufTy).Contents (Elt F) :=
  broadcastInDim S131072x64 ![0, 1] bcast_S1x64_S131072x64_0_1 (broadcastInDim S1x64 ![1] bcast_S64_S1x64_1 PW)
/-- The weighted cross entropy `-(pw t log σ(x) + (1 - t) log σ(-x))`. -/
def bceV : (⟨S131072x64, .f32⟩ : BufTy).Contents (Elt F) :=
  Host.negf (addf (mulf (mulf (pwV PW) T) (logSigV X)) (mulf (subf (fill 0x3F800000#32) T) (logSigV (Host.negf X))))
/-- The focal loss of every entry. -/
def focalV : (⟨S131072x64, .f32⟩ : BufTy).Contents (Elt F) := mulf (focalWV X T) (bceV X T PW)
/-- The hard prediction `[p ≥ 1/2]` as a float. -/
def predV : (⟨S131072x64, .f32⟩ : BufTy).Contents (Elt F) :=
  uitofp .f32 (cmpf .oge (probV X) (fill 0x3F000000#32))
/-- The label correlation `tᵀ t / 131072`. -/
def corrV : (⟨S64x64, .f32⟩ : BufTy).Contents (Elt F) :=
  Host.divf (Host.dotGeneral dot_S64x131072_S131072x64_S64x64_1_0_0_1_n_n none
      (transpose S64x131072 [1, 0] T transposes_S131072x64_S64x131072_1_0) T) (fillSq 0x48000000#32)
/-- The label-pair weights: the correlation where it exceeds the threshold off the diagonal, zero elsewhere, halved. -/
def adjV : (⟨S64x64, .f32⟩ : BufTy).Contents (Elt F) :=
  mulf (select (andi (cmpf .ogt (corrV T) (fillSq 0x3E99999A#32))
        (noti (cmpi .eq (addi (iotaInDim S64x64 32 0) (broadcastInDim S64x64 ![] bcast_S_S64x64 (constantI S_ 32 0#32)))
          (iotaInDim S64x64 32 1))))
      (corrV T) (broadcastInDim S64x64 ![] bcast_S_S64x64 (id (constant S_ .f32 0x00000000#32))))
    (fillSq 0x3F000000#32)
/-- The weights transposed. -/
def adjTV : (⟨S64x64, .f32⟩ : BufTy).Contents (Elt F) := transpose S64x64 [1, 0] (adjV T) transposes_S64x64_S64x64_1_0
/-- `t Aᵀ`. -/
def tAV : (⟨S131072x64, .f32⟩ : BufTy).Contents (Elt F) :=
  Host.dotGeneral dot_S131072x64_S64x64_S131072x64_1_0_0_1_n_n none T (adjTV T)
/-- `(t·pred) Aᵀ`. -/
def tpAV : (⟨S131072x64, .f32⟩ : BufTy).Contents (Elt F) :=
  Host.dotGeneral dot_S131072x64_S64x64_S131072x64_1_0_0_1_n_n none (mulf T (predV X)) (adjTV T)
/-- The correlation penalty of every entry. -/
def penV : (⟨S131072x64, .f32⟩ : BufTy).Contents (Elt F) :=
  mulf T (subf (addf (mulf (predV X) (tAV T)) (tpAV X T)) (mulf (mulf (fill 0x40000000#32) (predV X)) (tpAV X T)))
/-- The reference's result: the sum over all entries of focal loss plus penalty, from zero, divided by the entry count. -/
def refOut : (⟨S_, .f32⟩ : BufTy).Contents (Elt F) :=
  Host.divf (Host.reduceAdd (addf (focalV X T PW) (penV X T)) (constant S_ .f32 0x00000000#32)
    reducesTo_S131072x64_S_d0_1 h_S_) (constant S_ .f32 0x4B000000#32)

end Terms

/-! ## The fold at the result and at the arguments -/

set_option maxRecDepth 16384 in
set_option maxHeartbeats 4000000 in
/-- The fold at the result buffer is `refOut` of the arguments' contents: each operation's result at its own buffer is
    its function's value, at any other buffer what was there. -/
theorem out_eq (V : Valuation τ sig (Elt F)) :
    after ops V (main_v63 : DevRef τ sig)
      = refOut (V (main_arg0 : DevRef τ sig)) (V (main_arg1 : DevRef τ sig)) (V (main_arg2 : DevRef τ sig)) := by
  after_results_simp
  rfl

set_option maxRecDepth 16384 in
set_option maxHeartbeats 4000000 in
theorem arg0_eq (V : Valuation τ sig (Elt F)) :
    after ops V (main_arg0 : DevRef τ sig) = V (main_arg0 : DevRef τ sig) := by
  after_results_simp

set_option maxRecDepth 16384 in
set_option maxHeartbeats 4000000 in
theorem arg1_eq (V : Valuation τ sig (Elt F)) :
    after ops V (main_arg1 : DevRef τ sig) = V (main_arg1 : DevRef τ sig) := by
  after_results_simp

set_option maxRecDepth 16384 in
set_option maxHeartbeats 4000000 in
theorem arg2_eq (V : Valuation τ sig (Elt F)) :
    after ops V (main_arg2 : DevRef τ sig) = V (main_arg2 : DevRef τ sig) := by
  after_results_simp

set_option maxRecDepth 16384 in
set_option maxHeartbeats 4000000 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v63).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibHostProducts.lean ====
/-
  The host's plain matrix product and its transpose, read at an index at the ideal (extended real) values and generic in
  the extents.

  * hostDotNN        — a host dot_general contracting the left operand's second axis with the right operand's first, for
                       ANY dimension record whose six lists are those: entry (e, o) is the sum over r of
                       x (e, r) * y (r, o). (The kernel's matrix product into a zero accumulator and the host's
                       dot_general are the same sum over the contracted index.)
  * transpose10_apply — an [a, b] array transposed by the permutation [1, 0] reads, at (r, c), the operand at (c, r).
-/
import Idealize.ShloMosaic.PureOps.Ideal.Laws
import Idealize.ShloMosaic.Lib.Pipeline.Value
import Idealize.ShloMosaic.Lib.ValueIdx
import proofs.«154980_j21131239097026_2_alg».proof.Proof.LibRowReduceProducts

noncomputable section

open scoped BigOperators

namespace Cert.LibHostProducts

open Idealize.ShloMosaic Idealize.ShloMosaic.ValueIdx

/-- Entry (e, o) of the host's plain product: row e of the left operand against column o of the right one. -/
theorem hostDotNN {K M N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    Host.dotGeneral D prec x y (ix2 e o) = ∑ r : Fin K, x (ix2 e r) * y (ix2 r o) := by
  have h := Cert.LibRowReduceProducts.matmulNN D hlc hrc hln hrn hlb hrb prec x y e o
  rw [Ideal.matmul_constant_zero_apply] at h
  show FloatOps.dotGeneral D prec _ x y (ix2 e o) = _
  rw [Ideal.dotGeneral_apply]
  exact h

/-- An [a, b] array transposed by [1, 0], at (r, c), is the operand at (c, r). -/
theorem transpose10_apply {α : Type} {a b : ℕ} (x : (⟨2, ![a, b]⟩ : Shape).Idx → α)
    (h : (⟨2, ![a, b]⟩ : Shape).Transposes [1, 0] ⟨2, ![b, a]⟩) (r : Fin b) (c : Fin a) :
    transpose ⟨2, ![b, a]⟩ [1, 0] x h (ix2 r c) = x (ix2 c r) := by
  refine transpose_apply [1, 0] x h (ix2 r c) (ix2 c r) fun d => ?_
  match d with
  | ⟨0, _⟩ => rfl
  | ⟨1, _⟩ => rfl

end Cert.LibHostProducts

end
-- ==== Proof.RefRead.lean ====
/-
  The reference's composed term read index by index at the extended reals: each layer of the term is the
  corresponding definition of the specification at the entry's coordinates, the two matrix products are sums over the
  contracted label, the label-pair weights are the shared chain's value at the label correlation, and the final
  reduction over both axes from zero is the double sum over rows and labels.
-/
import Idealize.ShloMosaic.PureOps.Ideal.Laws
import Idealize.ShloMosaic.Lib.Pipeline.Value
import Idealize.ShloMosaic.Lib.ValueIdx
import Idealize.ShloMosaic.Lib.IdealHost
import proofs.«154980_j21131239097026_2_alg».proof.Proof.Spec
import proofs.«154980_j21131239097026_2_alg».proof.Proof.Adj
import proofs.«154980_j21131239097026_2_alg».proof.Proof.LibHostProducts
import proofs.«154980_j21131239097026_2_alg».proof.Proof.RefRun

noncomputable section

open scoped BigOperators

namespace Cert.ReferenceIdeal.RefRead

open Cert.ReferenceIdeal Cert.ReferenceIdeal.Gen Cert.ReferenceIdeal.RefRun Cert.FocalGram
open Idealize.ShloMosaic Idealize.ShloMosaic.ValueIdx

variable (X T Y : FVec Ideal S131072x64 .f32) (PW : FVec Ideal S64 .f32)

/-! ## Constants -/

theorem fill_apply (w : BitVec 32) (i : S131072x64.Idx) : fill (F := Ideal) w i = Ideal.ofBits .f32 w := by
  unfold fill; rw [broadcastInDim_scalar_apply]; rfl

theorem fillSq_apply (w : BitVec 32) (i : S64x64.Idx) : fillSq (F := Ideal) w i = Ideal.ofBits .f32 w := by
  unfold fillSq; rw [broadcastInDim_scalar_apply]; rfl

/-! ## The entrywise layers -/

/-- The probability is the logistic function of the logit: the one word is 1. -/
theorem probV_apply (i : S131072x64.Idx) : probV (F := Ideal) X i = Ideal.logistic (X i) := by
  show Ideal.div (fill (F := Ideal) 0x3F800000#32 i) (fill (F := Ideal) 0x3F800000#32 i + Ideal.exp (-(X i))) = _
  rw [fill_apply, Ideal.ofBits_one_f32]; rfl

theorem agreeV_apply (b : Fin 131072) (c : Fin 64) :
    agreeV (F := Ideal) X T (ix2 b c) = agree (fun b c => X (ix2 b c)) (fun b c => T (ix2 b c)) b c := by
  show probV (F := Ideal) X (ix2 b c) * T (ix2 b c)
      + (fill (F := Ideal) 0x3F800000#32 (ix2 b c) - probV (F := Ideal) X (ix2 b c)) * (fill (F := Ideal) 0x3F800000#32 (ix2 b c) - T (ix2 b c)) = _
  rw [fill_apply, probV_apply]; rfl

theorem focalWV_apply (b : Fin 131072) (c : Fin 64) :
    focalWV (F := Ideal) X T (ix2 b c)
      = Ideal.pow (one - agree (fun b c => X (ix2 b c)) (fun b c => T (ix2 b c)) b c) two := by
  show Ideal.pow (fill (F := Ideal) 0x3F800000#32 (ix2 b c) - agreeV (F := Ideal) X T (ix2 b c)) (fill (F := Ideal) 0x40000000#32 (ix2 b c)) = _
  rw [fill_apply, fill_apply, agreeV_apply]

/-- The softplus at an entry: the not-a-number test is false on the extended reals, so the selection takes the sum;
    subtracting the zero word changes nothing; the absolute value is the maximum with the negation. -/
theorem softplusV_apply (i : S131072x64.Idx) : softplusV (F := Ideal) Y i = softplus (Y i) := by
  show Scalar.select (Ideal.cmp .une (Y i - fill (F := Ideal) 0x00000000#32 i) (Y i - fill (F := Ideal) 0x00000000#32 i))
      (Y i + fill (F := Ideal) 0x00000000#32 i)
      (max (Y i) (fill (F := Ideal) 0x00000000#32 i)
        + Ideal.log1p (Ideal.exp (-(max (Y i - fill (F := Ideal) 0x00000000#32 i) (-(Y i - fill (F := Ideal) 0x00000000#32 i)))))) = _
  rw [fill_apply, Ideal.ofBits_zero_f32, sub_zero]
  have hne : Ideal.cmp .une (Y i) (Y i) = 0#1 := by simp [Ideal.cmp]
  rw [hne, select_zero]; rfl

theorem logSigV_apply (i : S131072x64.Idx) : logSigV (F := Ideal) Y i = logSig (Y i) := by
  show -(softplusV (F := Ideal) (Host.negf Y) i) = _
  rw [softplusV_apply]; rfl

/-- The label weights broadcast down the rows read the label's weight. -/
theorem pwV_apply (b : Fin 131072) (c : Fin 64) : pwV (F := Ideal) PW (ix2 b c) = PW (ix1 c) := by
  unfold pwV
  rw [broadcastInDim_apply (k := (ix2 (0 : Fin 1) c : S1x64.Idx))]
  · rw [broadcastInDim_apply (k := (ix1 c : S64.Idx))]
    intro a
    match a with
    | ⟨0, _⟩ => rfl
  · intro a
    match a with
    | ⟨0, _⟩ => rfl
    | ⟨1, _⟩ => rfl

theorem focalV_apply (b : Fin 131072) (c : Fin 64) :
    focalV (F := Ideal) X T PW (ix2 b c)
      = focalRef (fun b c => X (ix2 b c)) (fun b c => T (ix2 b c)) (fun c => PW (ix1 c)) b c := by
  show focalWV (F := Ideal) X T (ix2 b c)
      * -((pwV (F := Ideal) PW (ix2 b c) * T (ix2 b c)) * logSigV (F := Ideal) X (ix2 b c)
          + (fill (F := Ideal) 0x3F800000#32 (ix2 b c) - T (ix2 b c)) * logSigV (F := Ideal) (Host.negf X) (ix2 b c)) = _
  rw [focalWV_apply, pwV_apply, logSigV_apply, logSigV_apply, fill_apply]; rfl

/-- The hard prediction: the comparison's bit as a float is 1 where one half is at most the probability, 0 elsewhere. -/
theorem predV_apply (b : Fin 131072) (c : Fin 64) :
    predV (F := Ideal) X (ix2 b c) = pred (fun b c => X (ix2 b c)) b c := by
  show (((Ideal.cmp .oge (probV (F := Ideal) X (ix2 b c)) (fill (F := Ideal) 0x3F000000#32 (ix2 b c))).toNat : ℝ) : EReal) = _
  rw [fill_apply, probV_apply]
  unfold pred prob Ideal.cmp
  by_cases h : half ≤ Ideal.logistic (X (ix2 b c))
  · rw [if_pos h]; simp [h]
  · rw [if_neg h]; simp [h]

/-! ## The label correlation and the weights -/

theorem corrV_apply (i j : Fin 64) : corrV (F := Ideal) T (ix2 i j) = corrAt (fun b c => T (ix2 b c)) i j := by
  show Ideal.div (Host.dotGeneral dot_S64x131072_S131072x64_S64x64_1_0_0_1_n_n none
      (transpose S64x131072 [1, 0] T transposes_S131072x64_S64x131072_1_0) T (ix2 i j)) (fillSq (F := Ideal) 0x48000000#32 (ix2 i j)) = _
  rw [fillSq_apply]
  have h := Cert.LibHostProducts.hostDotNN (K := 131072) (M := 64) (N := 64) (φ₁ := .f32) (φ₂ := .f32)
    dot_S64x131072_S131072x64_S64x64_1_0_0_1_n_n rfl rfl rfl rfl rfl rfl none
    (transpose S64x131072 [1, 0] T transposes_S131072x64_S64x131072_1_0) T i j
  refine (congrArg (fun z => Ideal.div z (Ideal.ofBits .f32 0x48000000#32)) h).trans ?_
  unfold corrAt
  refine congrArg (fun z => Ideal.div z (Ideal.ofBits .f32 0x48000000#32)) ?_
  refine Finset.sum_congr rfl fun r _ => ?_
  rw [Cert.LibHostProducts.transpose10_apply]

theorem adjV_apply (i j : Fin 64) :
    adjV (F := Ideal) T (ix2 i j) = adjAt (corrAt (fun b c => T (ix2 b c)) i j) i j := by
  rw [← corrV_apply]
  exact adjChain_apply bcast_S_S64x64 (corrV (F := Ideal) T) i j

theorem adjTV_apply (k c : Fin 64) :
    adjTV (F := Ideal) T (ix2 k c) = adjAt (corrAt (fun b c => T (ix2 b c)) c k) c k := by
  unfold adjTV
  rw [Cert.LibHostProducts.transpose10_apply, adjV_apply]

/-! ## The penalty -/

theorem tAV_apply (b : Fin 131072) (c : Fin 64) :
    tAV (F := Ideal) T (ix2 b c)
      = tA (fun b c => T (ix2 b c)) (fun i j => adjAt (corrAt (fun b c => T (ix2 b c)) i j) i j) b c := by
  unfold tAV tA
  rw [Cert.LibHostProducts.hostDotNN _ rfl rfl rfl rfl rfl rfl]
  refine Finset.sum_congr rfl fun k _ => ?_
  rw [adjTV_apply]

theorem tpAV_apply (b : Fin 131072) (c : Fin 64) :
    tpAV (F := Ideal) X T (ix2 b c)
      = tpA (fun b c => X (ix2 b c)) (fun b c => T (ix2 b c))
          (fun i j => adjAt (corrAt (fun b c => T (ix2 b c)) i j) i j) b c := by
  unfold tpAV tpA
  rw [Cert.LibHostProducts.hostDotNN _ rfl rfl rfl rfl rfl rfl]
  refine Finset.sum_congr rfl fun k _ => ?_
  rw [adjTV_apply, mulf_apply, predV_apply]

theorem penV_apply (b : Fin 131072) (c : Fin 64) :
    penV (F := Ideal) X T (ix2 b c)
      = penalty (fun b c => X (ix2 b c)) (fun b c => T (ix2 b c))
          (fun i j => adjAt (corrAt (fun b c => T (ix2 b c)) i j) i j) b c := by
  show T (ix2 b c) * ((predV (F := Ideal) X (ix2 b c) * tAV (F := Ideal) T (ix2 b c) + tpAV (F := Ideal) X T (ix2 b c))
      - (fill (F := Ideal) 0x40000000#32 (ix2 b c) * predV (F := Ideal) X (ix2 b c)) * tpAV (F := Ideal) X T (ix2 b c)) = _
  rw [predV_apply, tAV_apply, tpAV_apply, fill_apply]; rfl

/-! ## The result -/

/-- The reduction over both axes from the zero word is the double sum over rows and labels. -/
theorem total_apply (Z : FVec Ideal S131072x64 .f32) (u : S_.Idx) :
    Host.reduceAdd Z (constant (F := Ideal) S_ .f32 0x00000000#32) reducesTo_S131072x64_S_d0_1 h_S_ u
      = ∑ b : Fin 131072, ∑ c : Fin 64, Z (ix2 b c) := by
  show Ideal.hostReduceAdd reducesTo_S131072x64_S_d0_1 Z (Ideal.ofBits .f32 0x00000000#32) u = _
  refine (Ideal.hostReduceAdd_total reducesTo_S131072x64_S_d0_1 (fun b => b.elim0) Z _ u).trans ?_
  rw [Ideal.ofBits_zero_f32, zero_add]
  exact sum_idx2 (n0 := 131072) (n1 := 64) Z

/-- The reference's result is the specification's mean of focal loss plus penalty: the total of the entries' focal
    loss plus penalty, divided by the entry-count word. -/
theorem refOut_eq (X T : FVec Ideal S131072x64 .f32) (PW : FVec Ideal S64 .f32) :
    RefRun.refOut (F := Ideal) X T PW
      = fun _ => Cert.FocalGram.refValue (fun b c => X (ValueIdx.ix2 b c)) (fun b c => T (ValueIdx.ix2 b c))
          (fun c => PW (ValueIdx.ix1 c))
          (fun i j => Cert.FocalGram.adjAt (Cert.FocalGram.corrAt (fun b c => T (ValueIdx.ix2 b c)) i j) i j) := by
  funext u
  show Ideal.div (Host.reduceAdd (addf (focalV (F := Ideal) X T PW) (penV (F := Ideal) X T))
      (constant (F := Ideal) S_ .f32 0x00000000#32) reducesTo_S131072x64_S_d0_1 h_S_ u) (Ideal.ofBits .f32 0x4B000000#32) = _
  rw [total_apply]
  unfold refValue
  refine congrArg (fun z => Ideal.div z nAll) ?_
  refine Finset.sum_congr rfl fun b _ => Finset.sum_congr rfl fun c _ => ?_
  rw [addf_apply, focalV_apply, penV_apply]

end Cert.ReferenceIdeal.RefRead

end
-- ==== Proof.Algebra.lean ====
/-
  The algebra of the certificate: the reference's result and the kernel's result are the same extended real whenever
  the logits, the targets and the label-pair weights are real numbers.

  Three facts carry it.

  1. Entry by entry the two focal losses agree. The reference raises (1 - agreement) to the power two and the kernel
     multiplies it by itself: for a real base these are the same number. The reference takes log σ(-x) and the
     kernel takes log σ(x) - x: with log σ(y) = -softplus(-y) and softplus(y) = max(y, 0) + log(1 + e^{-|y|}), the
     identity is max(x, 0) = max(-x, 0) + x together with |x| = |-x|.

  2. A finite sum of sums f + g splits into the sum of the f and the sum of the g (no finiteness of the values is
     needed for this one).

  3. The Gram law. Summing over rows b and labels c the penalty
       t_{b,c} (p_{b,c} Σ_k t_{b,k} a_{c,k} + Σ_k t_{b,k} p_{b,k} a_{c,k} - 2 p_{b,c} Σ_k t_{b,k} p_{b,k} a_{c,k})
     gives Σ_{i,j} a_{i,j} (G_{i,j} + G_{j,i} - 2 H_{i,j}) with G_{i,j} = Σ_b t_{b,i} p_{b,i} t_{b,j} and
     H_{i,j} = Σ_b t_{b,i} p_{b,i} t_{b,j} p_{b,j}: both sides are the same triple sum over (b, c, k) once the
     products are distributed and the sum over b is brought innermost. Distributivity and the exchange of sums hold
     on the reals, so the law is proved there and carried to the extended reals through the coercion; the hard
     prediction p is 0 or 1, hence real.
-/
import Mathlib
import proofs.«154980_j21131239097026_2_alg».proof.Proof.Spec

noncomputable section

open scoped BigOperators

namespace Cert.FocalGram

open Idealize.ShloMosaic

/-! ### Finite sums of reals inside the extended reals -/

/-- The coercion of the reals into the extended reals commutes with finite sums. -/
private theorem coe_fsum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-! ### The Gram law over the reals

T are the targets, P the hard predictions, a the label-pair weights. The left side contracts, row by row,
the target against the penalty built from the row's products with the transpose of a; the right side contracts a
against the Gram matrices of the columns. Both are the same triple sum over (row, label, label). -/

theorem gram_law_real {ι κ : Type*} [Fintype ι] [Fintype κ] (T P : ι → κ → ℝ) (a : κ → κ → ℝ) (c2 : ℝ) :
    ∑ b, ∑ c, T b c * ((P b c * ∑ k, T b k * a c k + ∑ k, (T b k * P b k) * a c k)
        - (c2 * P b c) * ∑ k, (T b k * P b k) * a c k)
      = ∑ i, ∑ j, a i j * ((∑ b, (T b i * P b i) * T b j + ∑ b, (T b j * P b j) * T b i)
        - c2 * ∑ b, (T b i * P b i) * (T b j * P b j)) := by
  have hL : ∀ b c, T b c * ((P b c * ∑ k, T b k * a c k + ∑ k, (T b k * P b k) * a c k)
        - (c2 * P b c) * ∑ k, (T b k * P b k) * a c k)
      = ∑ k, T b c * ((P b c * (T b k * a c k) + (T b k * P b k) * a c k)
        - (c2 * P b c) * ((T b k * P b k) * a c k)) := by
    intro b c
    rw [Finset.mul_sum, Finset.mul_sum, ← Finset.sum_add_distrib, ← Finset.sum_sub_distrib, Finset.mul_sum]
  have hR : ∀ i j, a i j * ((∑ b, (T b i * P b i) * T b j + ∑ b, (T b j * P b j) * T b i)
        - c2 * ∑ b, (T b i * P b i) * (T b j * P b j))
      = ∑ b, a i j * (((T b i * P b i) * T b j + (T b j * P b j) * T b i)
        - c2 * ((T b i * P b i) * (T b j * P b j))) := by
    intro i j
    rw [Finset.mul_sum, ← Finset.sum_add_distrib, ← Finset.sum_sub_distrib, Finset.mul_sum]
  simp only [hL, hR]
  rw [Finset.sum_comm]
  refine Finset.sum_congr rfl fun c _ => ?_
  rw [Finset.sum_comm]
  exact Finset.sum_congr rfl fun k _ => Finset.sum_congr rfl fun b _ => by ring

/-- The Gram law for extended reals that are real numbers. -/
theorem gram_law {ι κ : Type*} [Fintype ι] [Fintype κ] (t p : ι → κ → EReal) (A : κ → κ → EReal) (c2 : EReal)
    (ht : ∀ b c, ∃ r : ℝ, t b c = (r : EReal)) (hp : ∀ b c, ∃ r : ℝ, p b c = (r : EReal))
    (hA : ∀ i j, ∃ r : ℝ, A i j = (r : EReal)) (hc : ∃ r : ℝ, c2 = (r : EReal)) :
    ∑ b, ∑ c, t b c * ((p b c * ∑ k, t b k * A c k + ∑ k, (t b k * p b k) * A c k)
        - (c2 * p b c) * ∑ k, (t b k * p b k) * A c k)
      = ∑ i, ∑ j, A i j * ((∑ b, (t b i * p b i) * t b j + ∑ b, (t b j * p b j) * t b i)
        - c2 * ∑ b, (t b i * p b i) * (t b j * p b j)) := by
  choose T hT using ht
  choose P hP using hp
  choose a ha using hA
  obtain ⟨c, rfl⟩ := hc
  simp only [hT, hP, ha, ← EReal.coe_mul, ← coe_fsum, ← EReal.coe_add, ← EReal.coe_sub]
  exact congrArg _ (gram_law_real T P a c)

/-! ### The float words -/

theorem one_eq : one = ((1 : ℝ) : EReal) := by
  unfold one
  simp [Ideal.ofBits, Ideal.ieee, -EReal.coe_mul]
  norm_num

theorem two_eq : two = ((2 : ℝ) : EReal) := by
  unfold two
  simp [Ideal.ofBits, Ideal.ieee, -EReal.coe_mul]
  norm_num

/-! ### The square -/

/-- The power with exponent two is the product, on the reals. -/
theorem pow_two_real (u : ℝ) : Ideal.pow (u : EReal) two = (u : EReal) * (u : EReal) := by
  rw [two_eq, Ideal.pow_coe_coe, ← EReal.coe_mul]
  refine congrArg _ ?_
  show u ^ (2 : ℝ) = u * u
  rw [Real.rpow_two, sq]

/-! ### The log-sigmoid of the negated logit -/

private theorem coe_max' (a b : ℝ) : ((max a b : ℝ) : EReal) = max (a : EReal) (b : EReal) :=
  EReal.coe_strictMono.monotone.map_max

/-- The softplus of a real number, over the reals. -/
def spR (r : ℝ) : ℝ := max r 0 + Real.log (1 + Real.exp (-(max r (-r))))

theorem softplus_coe (r : ℝ) : softplus (r : EReal) = (spR r : EReal) := by
  have hpos : ¬ (1 + Real.exp (-(max r (-r))) ≤ 0) := by
    have := Real.exp_pos (-(max r (-r))); linarith
  unfold softplus spR Ideal.log1p
  rw [← EReal.coe_neg, ← coe_max', ← EReal.coe_neg, Ideal.exp_coe, ← EReal.coe_zero, ← coe_max', ← EReal.coe_one,
    ← EReal.coe_add, Ideal.log_coe, if_neg hpos, ← EReal.coe_add]

/-- max(r, 0) = max(-r, 0) + r, and |r| = |-r|: the softplus of r exceeds that of -r by r. -/
theorem spR_neg (r : ℝ) : spR r = spR (-r) + r := by
  unfold spR
  rw [neg_neg, max_comm (-r) r]
  rcases le_total r 0 with h | h
  · rw [max_eq_right h, max_eq_left (by linarith : (0 : ℝ) ≤ -r)]; ring
  · rw [max_eq_left h, max_eq_right (by linarith : -r ≤ (0 : ℝ))]; ring

theorem logSig_coe (r : ℝ) : logSig (r : EReal) = ((-(spR (-r)) : ℝ) : EReal) := by
  unfold logSig; rw [← EReal.coe_neg, softplus_coe, ← EReal.coe_neg]

/-- log σ(-x) = log σ(x) - x for a real x. -/
theorem logSig_neg (r : ℝ) : logSig (-(r : EReal)) = logSig (r : EReal) - (r : EReal) := by
  rw [← EReal.coe_neg, logSig_coe, logSig_coe, ← EReal.coe_sub]
  refine congrArg _ ?_
  have h := spR_neg r
  rw [neg_neg]; linarith

/-! ### The focal loss, entry by entry -/

/-- One minus the agreement is a real number when the logit and the target are. -/
theorem one_sub_agree_real (x t : Fin 131072 → Fin 64 → EReal) (b : Fin 131072) (c : Fin 64)
    (hx : ∃ r : ℝ, x b c = (r : EReal)) (ht : ∃ r : ℝ, t b c = (r : EReal)) :
    ∃ u : ℝ, one - agree x t b c = (u : EReal) := by
  obtain ⟨X, hX⟩ := hx
  obtain ⟨T, hT⟩ := ht
  refine ⟨1 - ((1 + Real.exp (-X))⁻¹ * T + (1 - (1 + Real.exp (-X))⁻¹) * (1 - T)), ?_⟩
  unfold agree prob
  rw [hX, hT, one_eq, Ideal.logistic_coe]
  simp only [EReal.coe_sub, EReal.coe_add, EReal.coe_mul]

theorem focalRef_eq_focalKer (x t : Fin 131072 → Fin 64 → EReal) (pw : Fin 64 → EReal) (b : Fin 131072)
    (c : Fin 64) (hx : ∃ r : ℝ, x b c = (r : EReal)) (ht : ∃ r : ℝ, t b c = (r : EReal)) :
    focalRef x t pw b c = focalKer x t pw b c := by
  obtain ⟨u, hu⟩ := one_sub_agree_real x t b c hx ht
  obtain ⟨X, hX⟩ := hx
  unfold focalRef focalKer
  rw [hu, pow_two_real, hX, logSig_neg]

/-- The hard prediction is 0 or 1. -/
theorem pred_real (x : Fin 131072 → Fin 64 → EReal) (b : Fin 131072) (c : Fin 64) :
    ∃ r : ℝ, pred x b c = (r : EReal) := by
  unfold pred
  split_ifs
  · exact ⟨1, EReal.coe_one.symm⟩
  · exact ⟨0, EReal.coe_zero.symm⟩

/-! ### The two results -/

theorem refValue_eq_kerValue (x t : Fin 131072 → Fin 64 → EReal) (pw : Fin 64 → EReal) (A : Fin 64 → Fin 64 → EReal)
    (hx : ∀ b c, ∃ r : ℝ, x b c = (r : EReal)) (ht : ∀ b c, ∃ r : ℝ, t b c = (r : EReal))
    (hA : ∀ i j, ∃ r : ℝ, A i j = (r : EReal)) :
    refValue x t pw A = kerValue x t pw A := by
  have hsplit : ∑ b, ∑ c, (focalRef x t pw b c + penalty x t A b c)
      = (∑ b, ∑ c, focalRef x t pw b c) + ∑ b, ∑ c, penalty x t A b c := by
    rw [← Finset.sum_add_distrib]
    exact Finset.sum_congr rfl fun b _ => Finset.sum_add_distrib
  have hfocal : ∑ b, ∑ c, focalRef x t pw b c = ∑ b, ∑ c, focalKer x t pw b c :=
    Finset.sum_congr rfl fun b _ => Finset.sum_congr rfl fun c _ =>
      focalRef_eq_focalKer x t pw b c (hx b c) (ht b c)
  have hgram : ∑ b, ∑ c, penalty x t A b c
      = ∑ i, ∑ j, A i j * ((gramG x t i j + gramG x t j i) - two * gramH x t i j) :=
    gram_law t (pred x) A two ht (pred_real x) hA ⟨2, two_eq⟩
  unfold refValue kerValue
  rw [hsplit, hfocal, hgram]

end Cert.FocalGram

end
-- ==== Proof.Finite.lean ====
/-
  The precondition makes the inputs real numbers.

  The precondition computes, for each of the three inputs, the conjunction over all entries of |entry| < +∞ (the
  float word 0x7F800000 is plus infinity), and the conjunction of the three. If that single bit is one then each of
  the three conjunctions is one, hence each entry's comparison is one; and an extended real whose absolute value
  max(x, -x) lies strictly below plus infinity is neither infinity: it is a real number.
-/
import Mathlib
import Idealize.ShloMosaic.Lib.ReduceAll
import Idealize.ShloMosaic.Lib.ValueIdx
import proofs.«154980_j21131239097026_2_alg».proof.Pre_finite_inputs

noncomputable section

namespace Cert.FocalGram

open Idealize.ShloMosaic

/-- An extended real whose absolute value lies below the float word of plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape of a scalar has one index. -/
instance : Subsingleton Cert.Pre_finite_inputs.S_.Idx := ⟨fun a b => funext fun d => d.elim0⟩

/-- Under the precondition (every entry of the three inputs has absolute value below plus infinity, all three
    conjunctions equal to one) every logit and every target is a real number. -/
theorem real_of_pre [Cert.Pre_finite_inputs.Facts]
    (X T : FVec Ideal Cert.Pre_finite_inputs.S131072x64 .f32) (PW : FVec Ideal Cert.Pre_finite_inputs.S64 .f32)
    (h : Cert.Pre_finite_inputs.fn (F := Ideal) X T PW = fun _ => 1#1) :
    (∀ i, ∃ r : ℝ, X i = (r : EReal)) ∧ (∀ i, ∃ r : ℝ, T i = (r : EReal)) := by
  have h0 := congrFun h ValueIdx.ix0
  dsimp only [Cert.Pre_finite_inputs.fn] at h0
  obtain ⟨hXT, -⟩ := IntOp.andi_eq_one.1 h0
  obtain ⟨hX, hT⟩ := IntOp.andi_eq_one.1 hXT
  exact ⟨fun i => real_of_abs_lt_inf (X i) (Host.reduce_andi_all _ _ _ _ _ hX i),
    fun i => real_of_abs_lt_inf (T i) (Host.reduce_andi_all _ _ _ _ _ hT i)⟩

end Cert.FocalGram

end
-- ==== Proof.lean ====
/-
  The certificate: a focal / weighted cross-entropy loss over 131072 rows by 64 labels plus a label-correlation penalty,
  averaged, computed two ways.

  The reference adds to each entry's focal loss the penalty `t (pred · (t Aᵀ) + (t·pred) Aᵀ - 2 pred · (t·pred) Aᵀ)` and
  takes the mean. The kernel streams the rows once in 32 tiles over two groups of sixteen, accumulating the focal total and
  the three 64 by 64 Gram matrices `tᵀ t`, `G = (t·pred)ᵀ t`, `H = (t·pred)ᵀ (t·pred)`; after the region it builds the
  pair weights `A` from `tᵀ t` and adds `Σ A (G + Gᵀ - 2 H)`. Over the extended reals the two agree when the inputs are
  real numbers: expanding the penalty and exchanging the sums over rows and label pairs is distributivity, which needs
  finiteness — the precondition supplies it. The kernel also writes the square as a product and `log σ(-x)` as
  `log σ(x) - x`; both are identities on the reals.

  The three frames are the generated frame runs (the reference's: its run with the result dropped); nothing was rewritten
  by the idealization, so there is nothing to preserve; the value claim joins the kernel's run (its accumulators read
  point by point, the blocks flushed, the lines after the region) and the reference's run (read index by index) through
  the one specification both are shown to compute.
-/
import proofs.«154980_j21131239097026_2_alg».proof.Defs
import proofs.«154980_j21131239097026_2_alg».proof.Proof.Gen.Kernel
import proofs.«154980_j21131239097026_2_alg».proof.Proof.Gen.Kernel.Skeleton
import proofs.«154980_j21131239097026_2_alg».proof.Proof.Gen.Kernel.Launch
import proofs.«154980_j21131239097026_2_alg».proof.Proof.Gen.Kernel.Points
import proofs.«154980_j21131239097026_2_alg».proof.Proof.Gen.Kernel.Frame
import proofs.«154980_j21131239097026_2_alg».proof.Proof.Gen.KernelIdeal
import proofs.«154980_j21131239097026_2_alg».proof.Proof.Gen.KernelIdeal.Skeleton
import proofs.«154980_j21131239097026_2_alg».proof.Proof.Gen.KernelIdeal.Launch
import proofs.«154980_j21131239097026_2_alg».proof.Proof.Gen.KernelIdeal.Points
import proofs.«154980_j21131239097026_2_alg».proof.Proof.Gen.KernelIdeal.Frame
import proofs.«154980_j21131239097026_2_alg».proof.Proof.Gen.ReferenceIdeal
import proofs.«154980_j21131239097026_2_alg».proof.Proof.Gen.Pre_finite_inputs
import proofs.«154980_j21131239097026_2_alg».proof.Proof.KerRun
import proofs.«154980_j21131239097026_2_alg».proof.Proof.RefRun
import proofs.«154980_j21131239097026_2_alg».proof.Proof.RefRead
import proofs.«154980_j21131239097026_2_alg».proof.Proof.Algebra
import proofs.«154980_j21131239097026_2_alg».proof.Proof.Finite
import proofs.«154980_j21131239097026_2_alg».proof.Proof.Adj
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the one specification's value of the same arguments: the kernel's at `kerValue`, the reference's
    at `refValue`, equal because the inputs are real numbers under the precondition. -/
theorem algebraic : Cert.algebraic_KernelIdeal_ReferenceIdeal := by
  intro m ρ m' ρ' hpre hagree
  refine ⟨fun c => fun _ => Cert.FocalGram.kerValue (Cert.KernelIdeal.KerValue.argX m c) (Cert.KernelIdeal.KerValue.argT m c)
      (Cert.KernelIdeal.KerValue.argW m c) (Cert.KernelIdeal.KerValue.weights m c),
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefRead.refOut_eq]
  obtain ⟨hx, ht⟩ := Cert.FocalGram.real_of_pre _ _ _ (hpre c)
  funext _
  exact Cert.FocalGram.refValue_eq_kerValue _ _ _ _ (fun b k => hx (ValueIdx.ix2 b k)) (fun b k => ht (ValueIdx.ix2 b k))
    (fun i j => Cert.FocalGram.adjAt_real _ (Cert.FocalGram.corrAt_real _ (fun b k => ht (ValueIdx.ix2 b k)) i j) i j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
